-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512x128 .f32) (main_arg9 : FVec F S128 .f32) (main_arg10 : FVec F S512x128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S512x512 .f32) (main_arg8 : FVec F S512x128 .f32) (main_arg9 : FVec F S128 .f32) (main_arg10 : FVec F S512x128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x512 .f32) (main_arg1 : IVec S2x400000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512x128 .f32) (main_arg9 : FVec F S128 .f32) (main_arg10 : FVec F S512x128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1x512 : Shape := ⟨2, ![1, 512]⟩
abbrev S1000x512 : Shape := ⟨2, ![1000, 512]⟩
abbrev S1x128 : Shape := ⟨2, ![1, 128]⟩
abbrev S50000x128 : Shape := ⟨2, ![50000, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 96
  | .vmem => 27
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x128, .f32⟩
  | .hbm, ⟨9, _⟩ => ⟨S128, .f32⟩
  | .hbm, ⟨10, _⟩ => ⟨S512x128, .f32⟩
  | .hbm, ⟨11, _⟩ => ⟨S1x400000, .i32⟩
  | .hbm, ⟨12, _⟩ => ⟨S400000, .i32⟩
  | .hbm, ⟨13, _⟩ => ⟨S1x400000, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x512, .f32⟩
  | .hbm, ⟨24, _⟩ => ⟨S_, .f32⟩
  | .hbm, ⟨25, _⟩ => ⟨S50000x512, .f32⟩
  | .hbm, ⟨26, _⟩ => ⟨S400000x1, .i32⟩
  | .hbm, ⟨27, _⟩ => ⟨S50000x512, .f32⟩
  | .hbm, ⟨28, _⟩ => ⟨S_, .f32⟩
  | .hbm, ⟨29, _⟩ => ⟨S400000, .f32⟩
  | .hbm, ⟨30, _⟩ => ⟨S_, .f32⟩
  | .hbm, ⟨31, _⟩ => ⟨S50000, .f32⟩
  | .hbm, ⟨32, _⟩ => ⟨S400000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x512, .f32⟩
  | .hbm, ⟨39, _⟩ => ⟨S50000x512, .f32⟩
  | .hbm, ⟨40, _⟩ => ⟨S1x512, .f32⟩
  | .hbm, ⟨41, _⟩ => ⟨S50000x512, .f32⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000x512, .f32⟩
  | .hbm, ⟨51, _⟩ => ⟨S_, .f32⟩
  | .hbm, ⟨52, _⟩ => ⟨S50000x512, .f32⟩
  | .hbm, ⟨53, _⟩ => ⟨S400000x1, .i32⟩
  | .hbm, ⟨54, _⟩ => ⟨S50000x512, .f32⟩
  | .hbm, ⟨55, _⟩ => ⟨S_, .f32⟩
  | .hbm, ⟨56, _⟩ => ⟨S400000, .f32⟩
  | .hbm, ⟨57, _⟩ => ⟨S_, .f32⟩
  | .hbm, ⟨58, _⟩ => ⟨S50000, .f32⟩
  | .hbm, ⟨59, _⟩ => ⟨S400000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x512, .f32⟩
  | .hbm, ⟨66, _⟩ => ⟨S50000x512, .f32⟩
  | .hbm, ⟨67, _⟩ => ⟨S1x512, .f32⟩
  | .hbm, ⟨68, _⟩ => ⟨S50000x512, .f32⟩
  | .hbm, ⟨69, _⟩ => ⟨S_, .i32⟩
  | .hbm, ⟨70, _⟩ => ⟨S400000, .i32⟩
  | .hbm, ⟨71, _⟩ => ⟨S400000, .i1⟩
  | .hbm, ⟨72, _⟩ => ⟨S_, .i32⟩
  | .hbm, ⟨73, _⟩ => ⟨S400000, .i32⟩
  | .hbm, ⟨74, _⟩ => ⟨S400000, .i32⟩
  | .hbm, ⟨75, _⟩ => ⟨S400000, .i32⟩
  | .hbm, ⟨76, _⟩ => ⟨S400000x1, .i32⟩
  | .hbm, ⟨77, _⟩ => ⟨S400000x512, .f32⟩
  | .hbm, ⟨78, _⟩ => ⟨S_, .f32⟩
  | .hbm, ⟨79, _⟩ => ⟨S50000x512, .f32⟩
  | .hbm, ⟨80, _⟩ => ⟨S400000x1, .i32⟩
  | .hbm, ⟨81, _⟩ => ⟨S50000x512, .f32⟩
  | .hbm, ⟨82, _⟩ => ⟨S_, .f32⟩
  | .hbm, ⟨83, _⟩ => ⟨S400000, .f32⟩
  | .hbm, ⟨84, _⟩ => ⟨S_, .f32⟩
  | .hbm, ⟨85, _⟩ => ⟨S50000, .f32⟩
  | .hbm, ⟨86, _⟩ => ⟨S400000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x512, .f32⟩
  | .hbm, ⟨93, _⟩ => ⟨S50000x512, .f32⟩
  | .hbm, ⟨94, _⟩ => ⟨S1x128, .f32⟩
  | .hbm, ⟨95, _⟩ => ⟨S50000x128, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S1x512, .f32⟩
  | .local _ .vmem, ⟨15, _⟩ => ⟨S512x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x128, .f32⟩
  | .local _ .vmem, ⟨23, _⟩ => ⟨S1x128, .f32⟩
  | .local _ .vmem, ⟨24, _⟩ => ⟨S512x128, .f32⟩
  | .local _ .vmem, ⟨25, _⟩ => ⟨S1000x128, .f32⟩
  | .local _ .vmem, ⟨26, _⟩ => ⟨S1000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S50000x512.size a
  hwx0_5 : ∀ i : grid0.Coords, EltTy.bits .f32 = 32 ∨ (Rect.block (s := S50000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S50000x512.size a
  hwx2_1 : ∀ i : grid2.Coords, EltTy.bits .f32 = 32 ∨ (Rect.block (s := S50000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S50000x128.size a
  hwx2_5 : ∀ i : grid2.Coords, EltTy.bits .f32 = 32 ∨ (Rect.block (s := S50000x128) S1000x128.size (cc2_transform_5 i) (hinb2_5 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S512x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1x512 : Shape := ⟨2, ![1, 512]⟩
abbrev S50000x128 : Shape := ⟨2, ![50000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x512, .f32⟩
  | 1 => ⟨S2x400000, .i32⟩
  | 2 => ⟨S512x512, .f32⟩
  | 3 => ⟨S512, .f32⟩
  | 4 => ⟨S512x512, .f32⟩
  | 5 => ⟨S512x512, .f32⟩
  | 6 => ⟨S512, .f32⟩
  | 7 => ⟨S512x512, .f32⟩
  | 8 => ⟨S512x128, .f32⟩
  | 9 => ⟨S128, .f32⟩
  | 10 => ⟨S512x128, .f32⟩
  | 11 => ⟨S1x400000, .i32⟩
  | 12 => ⟨S400000, .i32⟩
  | 13 => ⟨S1x400000, .i32⟩
  | 14 => ⟨S400000, .i32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x512, .f32⟩
  | 24 => ⟨S_, .f32⟩
  | 25 => ⟨S50000x512, .f32⟩
  | 26 => ⟨S400000x1, .i32⟩
  | 27 => ⟨S50000x512, .f32⟩
  | 28 => ⟨S_, .f32⟩
  | 29 => ⟨S400000, .f32⟩
  | 30 => ⟨S_, .f32⟩
  | 31 => ⟨S50000, .f32⟩
  | 32 => ⟨S400000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x512, .f32⟩
  | 39 => ⟨S50000x512, .f32⟩
  | 40 => ⟨S50000x512, .f32⟩
  | 41 => ⟨S1x512, .f32⟩
  | 42 => ⟨S50000x512, .f32⟩
  | 43 => ⟨S50000x512, .f32⟩
  | 44 => ⟨S50000x512, .f32⟩
  | 45 => ⟨S50000x512, .f32⟩
  | 46 => ⟨S_, .f32⟩
  | 47 => ⟨S50000x512, .f32⟩
  | 48 => ⟨S50000x512, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x512, .f32⟩
  | 58 => ⟨S_, .f32⟩
  | 59 => ⟨S50000x512, .f32⟩
  | 60 => ⟨S400000x1, .i32⟩
  | 61 => ⟨S50000x512, .f32⟩
  | 62 => ⟨S_, .f32⟩
  | 63 => ⟨S400000, .f32⟩
  | 64 => ⟨S_, .f32⟩
  | 65 => ⟨S50000, .f32⟩
  | 66 => ⟨S400000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x512, .f32⟩
  | 73 => ⟨S50000x512, .f32⟩
  | 74 => ⟨S50000x512, .f32⟩
  | 75 => ⟨S1x512, .f32⟩
  | 76 => ⟨S50000x512, .f32⟩
  | 77 => ⟨S50000x512, .f32⟩
  | 78 => ⟨S50000x512, .f32⟩
  | 79 => ⟨S50000x512, .f32⟩
  | 80 => ⟨S_, .f32⟩
  | 81 => ⟨S50000x512, .f32⟩
  | 82 => ⟨S50000x512, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x512, .f32⟩
  | 92 => ⟨S_, .f32⟩
  | 93 => ⟨S50000x512, .f32⟩
  | 94 => ⟨S400000x1, .i32⟩
  | 95 => ⟨S50000x512, .f32⟩
  | 96 => ⟨S_, .f32⟩
  | 97 => ⟨S400000, .f32⟩
  | 98 => ⟨S_, .f32⟩
  | 99 => ⟨S50000, .f32⟩
  | 100 => ⟨S400000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x512, .f32⟩
  | 107 => ⟨S50000x512, .f32⟩
  | 108 => ⟨S50000x128, .f32⟩
  | 109 => ⟨S1x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S50000x128, .f32⟩
  | 123 => ⟨S_, .f32⟩
  | 124 => ⟨S50000, .f32⟩
  | 125 => ⟨S50000x1, .f32⟩
  | 126 => ⟨S50000x1, .f32⟩
  | 127 => ⟨S50000x128, .f32⟩
  | _ => ⟨S50000x512, .f32⟩

abbrev hbmTy0_1 (i : Nat) : BufTy := match i % 128 with
  | 0 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000x1_S50000x128_0_1 : S50000x1.BroadcastsInDim S50000x128 (![0, 1] : Fin 2 → Fin S50000x128.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KRun.lean ====
/-
  The run of the idealized kernel program with its RESULT kept.

  The program is three kernel regions among stretches of host operations. The launch theorem for such a
  program ends with every unscoped buffer of a core at the contents the last segment leaves; the frame
  claim projects the argument arrays out of that, and here the result array is projected as well: it ends
  holding what the third region's write-backs leave in it, the arguments as launched.
-/
import proofs.«170947_j13606456394538_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the
    contents the third region leaves it with, every argument array as launched. -/
theorem run_value : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.Spec.lean ====
/-
  The mathematics of the certificate, free of either program.

  One GraphSAGE layer with mean aggregation sends node features `x` (one row per node) and their
  neighbourhood means `mean` to the affine map `mean · W_l + b + x · W_r`, entry by entry
  `(Σ_j mean[r,j] · W_l[j,k] + b[k]) + Σ_j x[r,j] · W_r[j,k]` on the extended reals, the two sums
  over the 512 input features and grouped exactly as written. The first two layers follow it by
  `max(·, 0)`; the last by a row-wise log-softmax in its shifted form: with `mx` the maximum of the row
  (the fold of `max` from the float pattern of -∞) and `s = o - mx`, the entry is `s[k] - log Σ_j exp s[j]`.

  Everything is stated for a row count `N` and a width `D`, so that the same definitions describe one
  block of rows and the whole array; the bias is a plain function of the column.
  The network is the three layers in sequence, the aggregation `agg` (features ↦ neighbourhood means) a
  parameter: it is the same function on both sides and is never opened.
-/
import Idealize.ShloMosaic.PureOps.Ideal
import Idealize.ShloMosaic.Lib.ValueIdx

noncomputable section

namespace Cert.Spec

open Idealize.ShloMosaic Idealize.ShloMosaic.ValueIdx

variable {N D : Nat}

/-- The affine part of a layer at row `r`, column `k`. -/
def lin (mean x : (⟨2, ![N, 512]⟩ : Shape).Idx → EReal) (wl wr : (⟨2, ![512, D]⟩ : Shape).Idx → EReal)
    (b : Fin D → EReal) (r : Fin N) (k : Fin D) : EReal :=
  ((∑ j : Fin 512, mean (ix2 r j) * wl (ix2 j k)) + b k) + ∑ j : Fin 512, x (ix2 r j) * wr (ix2 j k)

/-- A hidden layer's entry: the affine part, clamped below at zero. -/
def reluAt (mean x : (⟨2, ![N, 512]⟩ : Shape).Idx → EReal) (wl wr : (⟨2, ![512, D]⟩ : Shape).Idx → EReal)
    (b : Fin D → EReal) (r : Fin N) (k : Fin D) : EReal :=
  max (lin mean x wl wr b r k) 0

/-- The maximum of row `r` of the affine part, folded from the float pattern of -∞. -/
def rowMax (mean x : (⟨2, ![N, 512]⟩ : Shape).Idx → EReal) (wl wr : (⟨2, ![512, D]⟩ : Shape).Idx → EReal)
    (b : Fin D → EReal) (r : Fin N) : EReal :=
  (Finset.univ : Finset (Fin D)).fold max (Ideal.ofBits .f32 0xFF800000#32) (fun j => lin mean x wl wr b r j)

/-- The output layer's entry: the shifted log-softmax of row `r` at column `k`. -/
def lsmAt (mean x : (⟨2, ![N, 512]⟩ : Shape).Idx → EReal) (wl wr : (⟨2, ![512, D]⟩ : Shape).Idx → EReal)
    (b : Fin D → EReal) (r : Fin N) (k : Fin D) : EReal :=
  (lin mean x wl wr b r k - rowMax mean x wl wr b r)
    - Ideal.log (∑ j : Fin D, Ideal.exp (lin mean x wl wr b r j - rowMax mean x wl wr b r))

/-- A hidden layer as a whole array. -/
def reluLayer (mean x : (⟨2, ![N, 512]⟩ : Shape).Idx → EReal) (wl wr : (⟨2, ![512, D]⟩ : Shape).Idx → EReal)
    (b : Fin D → EReal) : (⟨2, ![N, D]⟩ : Shape).Idx → EReal :=
  fun i => reluAt mean x wl wr b (i 0) (i 1)

/-- The output layer as a whole array. -/
def lsmLayer (mean x : (⟨2, ![N, 512]⟩ : Shape).Idx → EReal) (wl wr : (⟨2, ![512, D]⟩ : Shape).Idx → EReal)
    (b : Fin D → EReal) : (⟨2, ![N, D]⟩ : Shape).Idx → EReal :=
  fun i => lsmAt mean x wl wr b (i 0) (i 1)

theorem reluLayer_ix2 (mean x : (⟨2, ![N, 512]⟩ : Shape).Idx → EReal) (wl wr : (⟨2, ![512, D]⟩ : Shape).Idx → EReal)
    (b : Fin D → EReal) (r : Fin N) (k : Fin D) : reluLayer mean x wl wr b (ix2 r k) = reluAt mean x wl wr b r k := rfl

theorem lsmLayer_ix2 (mean x : (⟨2, ![N, 512]⟩ : Shape).Idx → EReal) (wl wr : (⟨2, ![512, D]⟩ : Shape).Idx → EReal)
    (b : Fin D → EReal) (r : Fin N) (k : Fin D) : lsmLayer mean x wl wr b (ix2 r k) = lsmAt mean x wl wr b r k := rfl

/-- The three layers in sequence over an aggregation `agg`: 512 → 512 → 512 → 128. -/
def sage3 (agg : ((⟨2, ![N, 512]⟩ : Shape).Idx → EReal) → (⟨2, ![N, 512]⟩ : Shape).Idx → EReal)
    (x : (⟨2, ![N, 512]⟩ : Shape).Idx → EReal)
    (w1l w1r w2l w2r : (⟨2, ![512, 512]⟩ : Shape).Idx → EReal) (w3l w3r : (⟨2, ![512, 128]⟩ : Shape).Idx → EReal)
    (b1 b2 : Fin 512 → EReal) (b3 : Fin 128 → EReal) : (⟨2, ![N, 128]⟩ : Shape).Idx → EReal :=
  let h1 := reluLayer (agg x) x w1l w1r b1
  let h2 := reluLayer (agg h1) h1 w2l w2r b2
  lsmLayer (agg h2) h2 w3l w3r b3

end Cert.Spec

end
-- ==== Proof.SpecCongr.lean ====
/-
  Entries of a layer depend on one row of the features and of the means, and on the weights and the bias:
  two settings that agree on that row (whatever the two row counts) and on the parameters give the same entry.
  This is what lets a block of rows stand for the rows of the whole array.
-/
import proofs.«170947_j13606456394538_1_alg».proof.Proof.Spec

noncomputable section

namespace Cert.Spec

open Idealize.ShloMosaic Idealize.ShloMosaic.ValueIdx

variable {N N' D : Nat}

theorem lin_congr (mean x : (⟨2, ![N, 512]⟩ : Shape).Idx → EReal) (mean' x' : (⟨2, ![N', 512]⟩ : Shape).Idx → EReal)
    (wl wr wl' wr' : (⟨2, ![512, D]⟩ : Shape).Idx → EReal) (b b' : Fin D → EReal) (r : Fin N) (r' : Fin N')
    (hm : ∀ j, mean (ix2 r j) = mean' (ix2 r' j)) (hx : ∀ j, x (ix2 r j) = x' (ix2 r' j))
    (hl : wl = wl') (hr : wr = wr') (hb : b = b') (k : Fin D) :
    lin mean x wl wr b r k = lin mean' x' wl' wr' b' r' k := by
  subst hl hr hb
  unfold lin
  simp only [hm, hx]

theorem reluAt_congr (mean x : (⟨2, ![N, 512]⟩ : Shape).Idx → EReal) (mean' x' : (⟨2, ![N', 512]⟩ : Shape).Idx → EReal)
    (wl wr wl' wr' : (⟨2, ![512, D]⟩ : Shape).Idx → EReal) (b b' : Fin D → EReal) (r : Fin N) (r' : Fin N')
    (hm : ∀ j, mean (ix2 r j) = mean' (ix2 r' j)) (hx : ∀ j, x (ix2 r j) = x' (ix2 r' j))
    (hl : wl = wl') (hr : wr = wr') (hb : b = b') (k : Fin D) :
    reluAt mean x wl wr b r k = reluAt mean' x' wl' wr' b' r' k := by
  unfold reluAt
  rw [lin_congr mean x mean' x' wl wr wl' wr' b b' r r' hm hx hl hr hb k]

theorem lsmAt_congr (mean x : (⟨2, ![N, 512]⟩ : Shape).Idx → EReal) (mean' x' : (⟨2, ![N', 512]⟩ : Shape).Idx → EReal)
    (wl wr wl' wr' : (⟨2, ![512, D]⟩ : Shape).Idx → EReal) (b b' : Fin D → EReal) (r : Fin N) (r' : Fin N')
    (hm : ∀ j, mean (ix2 r j) = mean' (ix2 r' j)) (hx : ∀ j, x (ix2 r j) = x' (ix2 r' j))
    (hl : wl = wl') (hr : wr = wr') (hb : b = b') (k : Fin D) :
    lsmAt mean x wl wr b r k = lsmAt mean' x' wl' wr' b' r' k := by
  have h : ∀ k, lin mean x wl wr b r k = lin mean' x' wl' wr' b' r' k :=
    lin_congr mean x mean' x' wl wr wl' wr' b b' r r' hm hx hl hr hb
  unfold lsmAt rowMax
  simp only [h]

end Cert.Spec

end
-- ==== Proof.Region0.lean ====
/-
  Region 0: from the blocks the grid points write back to the whole output array.

  The grid has 50 points; point `t` reads rows 1000·t … 1000·t+999 of the neighbourhood means and of the node
  features, the whole of both weight matrices and of the bias row, and writes back rows 1000·t … 1000·t+999
  of the output. An entry of a layer depends on one row of the means and of the features only, so what point
  `t` writes back is block `t` of ONE function of the whole arrays — the layer — and since the 50 blocks
  tile the 50000 rows, the output array ends holding the layer of the arrays the region found.
  Stated at any contents `V` of the buffers at the region's entry.
-/
import proofs.«170947_j13606456394538_1_alg».proof.Proof.Gen.KernelIdeal.Frame
import proofs.«170947_j13606456394538_1_alg».proof.Proof.SpecCongr
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, everything else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 50 := lt_of_lt_of_eq t.isLt N_0

/-- The row of the whole array that row `p` of point `t`'s block is. -/
def row (t : Fin cfg0.N) (p : Fin 1000) : Fin 50000 :=
  ⟨t.val * 1000 + p.val, by have := t_lt t; have := p.isLt; omega⟩

/-- The layer of the arrays the region finds. -/
def G (c : Dev nD) : S50000x512.Idx → EReal :=
  reluLayer (V c main_v22) (V c main_arg0) (V c main_arg2) (V c main_arg4) (fun k => V c main_v23 (ix2 0 k))

/-- A block of the means read at a row: the array's row. -/
theorem read_mean (c : Dev nD) (t : Fin cfg0.N) (p : Fin 1000) (j : Fin 512) :
    (iblk0 V c 0 t : S1000x512.Idx → EReal) (ix2 p j) = V c main_v22 (ix2 (row t p) j) := by
  show V c main_v22 (((cfg0.win 0).blk t).view.emb (ix2 p j)) = _
  refine congrArg (V c main_v22) (funext fun a => Fin.ext ?_)
  obtain ⟨e0, e1, -⟩ := idx_facts t
  match a with
  | ⟨0, _⟩ => show win0_0.index t (0 : Fin 2) * 1000 + 1 * p.val = t.val * 1000 + p.val; omega
  | ⟨1, _⟩ => show win0_0.index t (1 : Fin 2) * 512 + 1 * j.val = j.val; omega

/-- A block of the features read at a row: the array's row. -/
theorem read_x (c : Dev nD) (t : Fin cfg0.N) (p : Fin 1000) (j : Fin 512) :
    (iblk0 V c 1 t : S1000x512.Idx → EReal) (ix2 p j) = V c main_arg0 (ix2 (row t p) j) := by
  show V c main_arg0 (((cfg0.win 1).blk t).view.emb (ix2 p j)) = _
  refine congrArg (V c main_arg0) (funext fun a => Fin.ext ?_)
  obtain ⟨-, -, e0, e1, -⟩ := idx_facts t
  match a with
  | ⟨0, _⟩ => show win0_1.index t (0 : Fin 2) * 1000 + 1 * p.val = t.val * 1000 + p.val; omega
  | ⟨1, _⟩ => show win0_1.index t (1 : Fin 2) * 512 + 1 * j.val = j.val; omega

/-- The left weights' one block is the whole matrix. -/
theorem read_wl (c : Dev nD) (t : Fin cfg0.N) : (iblk0 V c 2 t : S512x512.Idx → EReal) = V c main_arg2 := by
  funext y
  show V c main_arg2 (((cfg0.win 2).blk t).view.emb y) = _
  refine congrArg (V c main_arg2) (funext fun a => Fin.ext ?_)
  obtain ⟨-, -, -, -, e0, e1, -⟩ := idx_facts t
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The bias row's one block is the whole row. -/
theorem read_b (c : Dev nD) (t : Fin cfg0.N) : (iblk0 V c 3 t : S1x512.Idx → EReal) = V c main_v23 := by
  funext y
  show V c main_v23 (((cfg0.win 3).blk t).view.emb y) = _
  refine congrArg (V c main_v23) (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- The right weights' one block is the whole matrix. -/
theorem read_wr (c : Dev nD) (t : Fin cfg0.N) : (iblk0 V c 4 t : S512x512.Idx → EReal) = V c main_arg4 := by
  funext y
  show V c main_arg4 (((cfg0.win 4).blk t).view.emb y) = _
  refine congrArg (V c main_arg4) (funext fun a => Fin.ext ?_)
  obtain ⟨-, -, -, -, -, -, -, -, e0, e1, -⟩ := idx_facts t
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- Where entry (p, k) of point `t`'s output block sits in the output array. -/
theorem emb_out (t : Fin cfg0.N) (p : Fin 1000) (k : Fin 512) :
    ((cfg0.win 5).blk t).view.emb (ix2 p k) = (ix2 (row t p) k : S50000x512.Idx) := by
  funext a; apply Fin.ext
  obtain ⟨-, -, -, -, -, -, -, -, -, -, e0, e1⟩ := idx_facts t
  match a with
  | ⟨0, _⟩ => show win0_5.index t (0 : Fin 2) * 1000 + 1 * p.val = t.val * 1000 + p.val; omega
  | ⟨1, _⟩ => show win0_5.index t (1 : Fin 2) * 512 + 1 * k.val = k.val; omega

/-- WHAT POINT `t` WRITES BACK is block `t` of the layer of the arrays the region finds — given the body's
    stored value read at an entry (`hpay`: the affine part of the block's rows, then the layer's last step). -/
theorem flushed_eq
    (hpay : ∀ (v0 v3 : Vec Ideal S1000x512 .f32) (vl vr : Vec Ideal S512x512 .f32) (vb : Vec Ideal S1x512 .f32) (p : Fin 1000) (k : Fin 512),
      k0_pay1 (F := Ideal) v0 v3 vl vr vb (ix2 p k) = reluAt v0 v3 vl vr (fun k => vb (ix2 0 k)) p k)
    (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S1000x512) hz, View.ld_unit_zero (S := S512x512) hz, View.ld_unit_zero (S := S1x512) hz]
  funext j
  obtain ⟨p, k, rfl⟩ : ∃ (p : Fin 1000) (k : Fin 512), j = ix2 p k := ⟨j 0, j 1, eq_ix2 j⟩
  show k0_pay1 (F := Ideal) (iblk0 V c 0 t) (iblk0 V c 1 t) (iblk0 V c 2 t) (iblk0 V c 4 t) (iblk0 V c 3 t) (ix2 p k)
      = G V c (((cfg0.win 5).blk t).view.emb (ix2 p k))
  rw [emb_out t p k]
  refine (hpay (iblk0 V c 0 t) (iblk0 V c 1 t) (iblk0 V c 2 t) (iblk0 V c 4 t) (iblk0 V c 3 t) p k).trans ?_
  show _ = reluAt (V c main_v22) (V c main_arg0) (V c main_arg2) (V c main_arg4) (fun k => V c main_v23 (ix2 0 k)) (row t p) k
  exact reluAt_congr _ _ _ _ _ _ _ _ _ _ p (row t p) (read_mean V c t p) (read_x V c t p) (read_wl V c t) (read_wr V c t)
    (funext fun k => congrFun (read_b V c t) (ix2 0 k)) k

/-- An index of the output array is in point `t`'s block iff each coordinate is in the block's range. -/
theorem mem_blk (t : Fin cfg0.N) (i : S50000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v24).slice (win0_5.rect t)).set ↔ _
  rw [View.set_slice_whole, Rect.mem_set_unit]
  exact Iff.rfl

/-- The blocks tile the array: row `r` is in the block of point `r / 1000`. -/
theorem cover (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  let t : Fin cfg0.N := ⟨(i 0).val / 1000, by rw [show cfg0.N = 50 from N_0]; omega⟩
  obtain ⟨-, -, -, -, -, -, -, -, -, -, e0, e1⟩ := idx_facts t
  have ht : t.val = (i 0).val / 1000 := rfl
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-- THE OUTPUT ARRAY after the region: the layer of the arrays the region finds. -/
theorem final
    (hpay : ∀ (v0 v3 : Vec Ideal S1000x512 .f32) (vl vr : Vec Ideal S512x512 .f32) (vb : Vec Ideal S1x512 .f32) (p : Fin 1000) (k : Fin 512),
      k0_pay1 (F := Ideal) v0 v3 vl vr vb (ix2 p k) = reluAt v0 v3 vl vr (fun k => vb (ix2 0 k)) p k)
    (c : Dev nD) : (dat0 V c).arrAt 5 cfg0.N = G V c :=
  (dat0 V c).arrAt_eq_of_cover 5 (G V c) (fun t _ => flushed_eq V hpay c t) (cover)

end Cert.KernelIdeal.Region0

end
-- ==== Proof.Region1.lean ====
/-
  Region 1: from the blocks the grid points write back to the whole output array.

  The grid has 50 points; point `t` reads rows 1000·t … 1000·t+999 of the neighbourhood means and of the node
  features, the whole of both weight matrices and of the bias row, and writes back rows 1000·t … 1000·t+999
  of the output. An entry of a layer depends on one row of the means and of the features only, so what point
  `t` writes back is block `t` of ONE function of the whole arrays — the layer — and since the 50 blocks
  tile the 50000 rows, the output array ends holding the layer of the arrays the region found.
  Stated at any contents `V` of the buffers at the region's entry.
-/
import proofs.«170947_j13606456394538_1_alg».proof.Proof.Gen.KernelIdeal.Frame
import proofs.«170947_j13606456394538_1_alg».proof.Proof.SpecCongr
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, everything else at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 50 := lt_of_lt_of_eq t.isLt N_1

/-- The row of the whole array that row `p` of point `t`'s block is. -/
def row (t : Fin cfg1.N) (p : Fin 1000) : Fin 50000 :=
  ⟨t.val * 1000 + p.val, by have := t_lt t; have := p.isLt; omega⟩

/-- The layer of the arrays the region finds. -/
def G (c : Dev nD) : S50000x512.Idx → EReal :=
  reluLayer (V c main_v43) (V c main_v24) (V c main_arg5) (V c main_arg7) (fun k => V c main_v44 (ix2 0 k))

/-- A block of the means read at a row: the array's row. -/
theorem read_mean (c : Dev nD) (t : Fin cfg1.N) (p : Fin 1000) (j : Fin 512) :
    (iblk1 V c 0 t : S1000x512.Idx → EReal) (ix2 p j) = V c main_v43 (ix2 (row t p) j) := by
  show V c main_v43 (((cfg1.win 0).blk t).view.emb (ix2 p j)) = _
  refine congrArg (V c main_v43) (funext fun a => Fin.ext ?_)
  obtain ⟨e0, e1, -⟩ := idx_facts t
  match a with
  | ⟨0, _⟩ => show win1_0.index t (0 : Fin 2) * 1000 + 1 * p.val = t.val * 1000 + p.val; omega
  | ⟨1, _⟩ => show win1_0.index t (1 : Fin 2) * 512 + 1 * j.val = j.val; omega

/-- A block of the features read at a row: the array's row. -/
theorem read_x (c : Dev nD) (t : Fin cfg1.N) (p : Fin 1000) (j : Fin 512) :
    (iblk1 V c 1 t : S1000x512.Idx → EReal) (ix2 p j) = V c main_v24 (ix2 (row t p) j) := by
  show V c main_v24 (((cfg1.win 1).blk t).view.emb (ix2 p j)) = _
  refine congrArg (V c main_v24) (funext fun a => Fin.ext ?_)
  obtain ⟨-, -, e0, e1, -⟩ := idx_facts t
  match a with
  | ⟨0, _⟩ => show win1_1.index t (0 : Fin 2) * 1000 + 1 * p.val = t.val * 1000 + p.val; omega
  | ⟨1, _⟩ => show win1_1.index t (1 : Fin 2) * 512 + 1 * j.val = j.val; omega

/-- The left weights' one block is the whole matrix. -/
theorem read_wl (c : Dev nD) (t : Fin cfg1.N) : (iblk1 V c 2 t : S512x512.Idx → EReal) = V c main_arg5 := by
  funext y
  show V c main_arg5 (((cfg1.win 2).blk t).view.emb y) = _
  refine congrArg (V c main_arg5) (funext fun a => Fin.ext ?_)
  obtain ⟨-, -, -, -, e0, e1, -⟩ := idx_facts t
  match a with
  | ⟨0, _⟩ => show win1_2.index t (0 : Fin 2) * 512 + 1 * (y 0).val = (y 0).val; omega
  | ⟨1, _⟩ => show win1_2.index t (1 : Fin 2) * 512 + 1 * (y 1).val = (y 1).val; omega

/-- The bias row's one block is the whole row. -/
theorem read_b (c : Dev nD) (t : Fin cfg1.N) : (iblk1 V c 3 t : S1x512.Idx → EReal) = V c main_v44 := by
  funext y
  show V c main_v44 (((cfg1.win 3).blk t).view.emb y) = _
  refine congrArg (V c main_v44) (funext fun a => Fin.ext ?_)
  obtain ⟨-, -, -, -, -, -, e0, e1, -⟩ := idx_facts t
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- The right weights' one block is the whole matrix. -/
theorem read_wr (c : Dev nD) (t : Fin cfg1.N) : (iblk1 V c 4 t : S512x512.Idx → EReal) = V c main_arg7 := by
  funext y
  show V c main_arg7 (((cfg1.win 4).blk t).view.emb y) = _
  refine congrArg (V c main_arg7) (funext fun a => Fin.ext ?_)
  obtain ⟨-, -, -, -, -, -, -, -, e0, e1, -⟩ := idx_facts t
  match a with
  | ⟨0, _⟩ => show win1_4.index t (0 : Fin 2) * 512 + 1 * (y 0).val = (y 0).val; omega
  | ⟨1, _⟩ => show win1_4.index t (1 : Fin 2) * 512 + 1 * (y 1).val = (y 1).val; omega

/-- Where entry (p, k) of point `t`'s output block sits in the output array. -/
theorem emb_out (t : Fin cfg1.N) (p : Fin 1000) (k : Fin 512) :
    ((cfg1.win 5).blk t).view.emb (ix2 p k) = (ix2 (row t p) k : S50000x512.Idx) := by
  funext a; apply Fin.ext
  obtain ⟨-, -, -, -, -, -, -, -, -, -, e0, e1⟩ := idx_facts t
  match a with
  | ⟨0, _⟩ => show win1_5.index t (0 : Fin 2) * 1000 + 1 * p.val = t.val * 1000 + p.val; omega
  | ⟨1, _⟩ => show win1_5.index t (1 : Fin 2) * 512 + 1 * k.val = k.val; omega

/-- WHAT POINT `t` WRITES BACK is block `t` of the layer of the arrays the region finds — given the body's
    stored value read at an entry (`hpay`: the affine part of the block's rows, then the layer's last step). -/
theorem flushed_eq
    (hpay : ∀ (v0 v3 : Vec Ideal S1000x512 .f32) (vl vr : Vec Ideal S512x512 .f32) (vb : Vec Ideal S1x512 .f32) (p : Fin 1000) (k : Fin 512),
      k1_pay1 (F := Ideal) v0 v3 vl vr vb (ix2 p k) = reluAt v0 v3 vl vr (fun k => vb (ix2 0 k)) p k)
    (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1000x512) hz, View.ld_unit_zero (S := S512x512) hz, View.ld_unit_zero (S := S1x512) hz]
  funext j
  obtain ⟨p, k, rfl⟩ : ∃ (p : Fin 1000) (k : Fin 512), j = ix2 p k := ⟨j 0, j 1, eq_ix2 j⟩
  show k1_pay1 (F := Ideal) (iblk1 V c 0 t) (iblk1 V c 1 t) (iblk1 V c 2 t) (iblk1 V c 4 t) (iblk1 V c 3 t) (ix2 p k)
      = G V c (((cfg1.win 5).blk t).view.emb (ix2 p k))
  rw [emb_out t p k]
  refine (hpay (iblk1 V c 0 t) (iblk1 V c 1 t) (iblk1 V c 2 t) (iblk1 V c 4 t) (iblk1 V c 3 t) p k).trans ?_
  show _ = reluAt (V c main_v43) (V c main_v24) (V c main_arg5) (V c main_arg7) (fun k => V c main_v44 (ix2 0 k)) (row t p) k
  exact reluAt_congr _ _ _ _ _ _ _ _ _ _ p (row t p) (read_mean V c t p) (read_x V c t p) (read_wl V c t) (read_wr V c t)
    (funext fun k => congrFun (read_b V c t) (ix2 0 k)) k

/-- An index of the output array is in point `t`'s block iff each coordinate is in the block's range. -/
theorem mem_blk (t : Fin cfg1.N) (i : S50000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v45).slice (win1_5.rect t)).set ↔ _
  rw [View.set_slice_whole, Rect.mem_set_unit]
  exact Iff.rfl

/-- The blocks tile the array: row `r` is in the block of point `r / 1000`. -/
theorem cover (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  let t : Fin cfg1.N := ⟨(i 0).val / 1000, by rw [show cfg1.N = 50 from N_1]; omega⟩
  obtain ⟨-, -, -, -, -, -, -, -, -, -, e0, e1⟩ := idx_facts t
  have ht : t.val = (i 0).val / 1000 := rfl
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 512 ≤ (i 1).val ∧ (i 1).val < win1_5.index t (1 : Fin 2) * 512 + 512; omega

/-- THE OUTPUT ARRAY after the region: the layer of the arrays the region finds. -/
theorem final
    (hpay : ∀ (v0 v3 : Vec Ideal S1000x512 .f32) (vl vr : Vec Ideal S512x512 .f32) (vb : Vec Ideal S1x512 .f32) (p : Fin 1000) (k : Fin 512),
      k1_pay1 (F := Ideal) v0 v3 vl vr vb (ix2 p k) = reluAt v0 v3 vl vr (fun k => vb (ix2 0 k)) p k)
    (c : Dev nD) : (dat1 V c).arrAt 5 cfg1.N = G V c :=
  (dat1 V c).arrAt_eq_of_cover 5 (G V c) (fun t _ => flushed_eq V hpay c t) (cover)

end Cert.KernelIdeal.Region1

end
-- ==== Proof.Region2.lean ====
/-
  Region 2: from the blocks the grid points write back to the whole output array.

  The grid has 50 points; point `t` reads rows 1000·t … 1000·t+999 of the neighbourhood means and of the node
  features, the whole of both weight matrices and of the bias row, and writes back rows 1000·t … 1000·t+999
  of the output. An entry of a layer depends on one row of the means and of the features only, so what point
  `t` writes back is block `t` of ONE function of the whole arrays — the layer — and since the 50 blocks
  tile the 50000 rows, the output array ends holding the layer of the arrays the region found.
  Stated at any contents `V` of the buffers at the region's entry.
-/
import proofs.«170947_j13606456394538_1_alg».proof.Proof.Gen.KernelIdeal.Frame
import proofs.«170947_j13606456394538_1_alg».proof.Proof.SpecCongr
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, everything else at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 50 := lt_of_lt_of_eq t.isLt N_2

/-- The row of the whole array that row `p` of point `t`'s block is. -/
def row (t : Fin cfg2.N) (p : Fin 1000) : Fin 50000 :=
  ⟨t.val * 1000 + p.val, by have := t_lt t; have := p.isLt; omega⟩

/-- The layer of the arrays the region finds. -/
def G (c : Dev nD) : S50000x128.Idx → EReal :=
  lsmLayer (V c main_v64) (V c main_v45) (V c main_arg8) (V c main_arg10) (fun k => V c main_v65 (ix2 0 k))

/-- A block of the means read at a row: the array's row. -/
theorem read_mean (c : Dev nD) (t : Fin cfg2.N) (p : Fin 1000) (j : Fin 512) :
    (iblk2 V c 0 t : S1000x512.Idx → EReal) (ix2 p j) = V c main_v64 (ix2 (row t p) j) := by
  show V c main_v64 (((cfg2.win 0).blk t).view.emb (ix2 p j)) = _
  refine congrArg (V c main_v64) (funext fun a => Fin.ext ?_)
  obtain ⟨e0, e1, -⟩ := idx_facts t
  match a with
  | ⟨0, _⟩ => show win2_0.index t (0 : Fin 2) * 1000 + 1 * p.val = t.val * 1000 + p.val; omega
  | ⟨1, _⟩ => show win2_0.index t (1 : Fin 2) * 512 + 1 * j.val = j.val; omega

/-- A block of the features read at a row: the array's row. -/
theorem read_x (c : Dev nD) (t : Fin cfg2.N) (p : Fin 1000) (j : Fin 512) :
    (iblk2 V c 1 t : S1000x512.Idx → EReal) (ix2 p j) = V c main_v45 (ix2 (row t p) j) := by
  show V c main_v45 (((cfg2.win 1).blk t).view.emb (ix2 p j)) = _
  refine congrArg (V c main_v45) (funext fun a => Fin.ext ?_)
  obtain ⟨-, -, e0, e1, -⟩ := idx_facts t
  match a with
  | ⟨0, _⟩ => show win2_1.index t (0 : Fin 2) * 1000 + 1 * p.val = t.val * 1000 + p.val; omega
  | ⟨1, _⟩ => show win2_1.index t (1 : Fin 2) * 512 + 1 * j.val = j.val; omega

/-- The left weights' one block is the whole matrix. -/
theorem read_wl (c : Dev nD) (t : Fin cfg2.N) : (iblk2 V c 2 t : S512x128.Idx → EReal) = V c main_arg8 := by
  funext y
  show V c main_arg8 (((cfg2.win 2).blk t).view.emb y) = _
  refine congrArg (V c main_arg8) (funext fun a => Fin.ext ?_)
  obtain ⟨-, -, -, -, e0, e1, -⟩ := idx_facts t
  match a with
  | ⟨0, _⟩ => show win2_2.index t (0 : Fin 2) * 512 + 1 * (y 0).val = (y 0).val; omega
  | ⟨1, _⟩ => show win2_2.index t (1 : Fin 2) * 128 + 1 * (y 1).val = (y 1).val; omega

/-- The bias row's one block is the whole row. -/
theorem read_b (c : Dev nD) (t : Fin cfg2.N) : (iblk2 V c 3 t : S1x128.Idx → EReal) = V c main_v65 := by
  funext y
  show V c main_v65 (((cfg2.win 3).blk t).view.emb y) = _
  refine congrArg (V c main_v65) (funext fun a => Fin.ext ?_)
  obtain ⟨-, -, -, -, -, -, e0, e1, -⟩ := idx_facts t
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The right weights' one block is the whole matrix. -/
theorem read_wr (c : Dev nD) (t : Fin cfg2.N) : (iblk2 V c 4 t : S512x128.Idx → EReal) = V c main_arg10 := by
  funext y
  show V c main_arg10 (((cfg2.win 4).blk t).view.emb y) = _
  refine congrArg (V c main_arg10) (funext fun a => Fin.ext ?_)
  obtain ⟨-, -, -, -, -, -, -, -, e0, e1, -⟩ := idx_facts t
  match a with
  | ⟨0, _⟩ => show win2_4.index t (0 : Fin 2) * 512 + 1 * (y 0).val = (y 0).val; omega
  | ⟨1, _⟩ => show win2_4.index t (1 : Fin 2) * 128 + 1 * (y 1).val = (y 1).val; omega

/-- Where entry (p, k) of point `t`'s output block sits in the output array. -/
theorem emb_out (t : Fin cfg2.N) (p : Fin 1000) (k : Fin 128) :
    ((cfg2.win 5).blk t).view.emb (ix2 p k) = (ix2 (row t p) k : S50000x128.Idx) := by
  funext a; apply Fin.ext
  obtain ⟨-, -, -, -, -, -, -, -, -, -, e0, e1⟩ := idx_facts t
  match a with
  | ⟨0, _⟩ => show win2_5.index t (0 : Fin 2) * 1000 + 1 * p.val = t.val * 1000 + p.val; omega
  | ⟨1, _⟩ => show win2_5.index t (1 : Fin 2) * 128 + 1 * k.val = k.val; omega

/-- WHAT POINT `t` WRITES BACK is block `t` of the layer of the arrays the region finds — given the body's
    stored value read at an entry (`hpay`: the affine part of the block's rows, then the layer's last step). -/
theorem flushed_eq
    (hpay : ∀ (v0 v3 : Vec Ideal S1000x512 .f32) (vl vr : Vec Ideal S512x128 .f32) (vb : Vec Ideal S1x128 .f32) (p : Fin 1000) (k : Fin 128),
      k2_pay1 (F := Ideal) v0 v3 vl vr vb (ix2 p k) = lsmAt v0 v3 vl vr (fun k => vb (ix2 0 k)) p k)
    (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x512) hz, View.ld_unit_zero (S := S512x128) hz, View.ld_unit_zero (S := S1x128) hz]
  funext j
  obtain ⟨p, k, rfl⟩ : ∃ (p : Fin 1000) (k : Fin 128), j = ix2 p k := ⟨j 0, j 1, eq_ix2 j⟩
  show k2_pay1 (F := Ideal) (iblk2 V c 0 t) (iblk2 V c 1 t) (iblk2 V c 2 t) (iblk2 V c 4 t) (iblk2 V c 3 t) (ix2 p k)
      = G V c (((cfg2.win 5).blk t).view.emb (ix2 p k))
  rw [emb_out t p k]
  refine (hpay (iblk2 V c 0 t) (iblk2 V c 1 t) (iblk2 V c 2 t) (iblk2 V c 4 t) (iblk2 V c 3 t) p k).trans ?_
  show _ = lsmAt (V c main_v64) (V c main_v45) (V c main_arg8) (V c main_arg10) (fun k => V c main_v65 (ix2 0 k)) (row t p) k
  exact lsmAt_congr _ _ _ _ _ _ _ _ _ _ p (row t p) (read_mean V c t p) (read_x V c t p) (read_wl V c t) (read_wr V c t)
    (funext fun k => congrFun (read_b V c t) (ix2 0 k)) k

/-- An index of the output array is in point `t`'s block iff each coordinate is in the block's range. -/
theorem mem_blk (t : Fin cfg2.N) (i : S50000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v66).slice (win2_5.rect t)).set ↔ _
  rw [View.set_slice_whole, Rect.mem_set_unit]
  exact Iff.rfl

/-- The blocks tile the array: row `r` is in the block of point `r / 1000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 1000, by rw [show cfg2.N = 50 from N_2]; omega⟩
  obtain ⟨-, -, -, -, -, -, -, -, -, -, e0, e1⟩ := idx_facts t
  have ht : t.val = (i 0).val / 1000 := rfl
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 128 ≤ (i 1).val ∧ (i 1).val < win2_5.index t (1 : Fin 2) * 128 + 128; omega

/-- THE OUTPUT ARRAY after the region: the layer of the arrays the region finds. -/
theorem final
    (hpay : ∀ (v0 v3 : Vec Ideal S1000x512 .f32) (vl vr : Vec Ideal S512x128 .f32) (vb : Vec Ideal S1x128 .f32) (p : Fin 1000) (k : Fin 128),
      k2_pay1 (F := Ideal) v0 v3 vl vr vb (ix2 p k) = lsmAt v0 v3 vl vr (fun k => vb (ix2 0 k)) p k)
    (c : Dev nD) : (dat2 V c).arrAt 5 cfg2.N = G V c :=
  (dat2 V c).arrAt_eq_of_cover 5 (G V c) (fun t _ => flushed_eq V hpay c t) (cover)

end Cert.KernelIdeal.Region2

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.Payload.lean ====
/-
  The three bodies' stored values, read at one entry, on the extended reals.

  Each body takes a block of 1000 rows: the neighbourhood means `mean` and the node features `x` (both 1000 × 512), the
  two weight matrices `W_l`, `W_r` (512 × D) and the bias as a row (1 × D). A change of float format is the identity on
  the extended reals, and a matrix product accumulated into the zero array is, at row `p` and column `k`, the plain sum
  over the 512 contraction coordinates of the products of the two entries. So every body computes, at `(p, k)`,
      o[p,k] = (Σ_j mean[p,j] · W_l[j,k] + b[k]) + Σ_j x[p,j] · W_r[j,k].
  The first two bodies (D = 512) store `max(o[p,k], 0)`. The third (D = 128) stores the shifted log-softmax of row `p`:
  with `m` the maximum of the row (the fold of `max` over the 128 lanes, from the float pattern of -∞) it stores
      (o[p,k] - m) - log Σ_j exp (o[p,j] - m).
-/
import proofs.«170947_j13606456394538_1_alg».proof.Proof.Gen.KernelIdeal.Skeleton
import proofs.«170947_j13606456394538_1_alg».proof.Proof.Spec
import proofs.«170947_j13606456394538_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.Spec Idealize.ShloMosaic Idealize.ShloMosaic.ValueIdx

/-- The dimension numbers of a plain row-by-column product. -/
abbrev plainD (N : Nat) (wf : DotDims.WF ⟨2, ![1000, 512]⟩ ⟨2, ![512, N]⟩ ⟨2, ![1000, N]⟩ [1] [0] [0] [1] [] []) :
    DotDims ⟨2, ![1000, 512]⟩ ⟨2, ![512, N]⟩ ⟨2, ![1000, N]⟩ := ⟨[1], [0], [0], [1], [], [], wf⟩

/-- The left operand's index at output index `i` has `i`'s row as its row … -/
theorem plainD_lhs0 {N : Nat} (wf) (i : (⟨2, ![1000, N]⟩ : Shape).Idx) (q : (plainD N wf).contr.Idx) :
    ((plainD N wf).lhsIdx i q 0).val = (i 0).val := by
  unfold DotDims.lhsIdx
  rw [dif_neg (show ¬(0 : Fin 2) ∈ (plainD N wf).lhsBatch from List.not_mem_nil), dif_pos (show (0 : Fin 2) ∈ (plainD N wf).lhsNonContracting from List.mem_singleton.mpr rfl)]
  rfl

/-- … and the right operand's index has `i`'s column as its column. -/
theorem plainD_rhs1 {N : Nat} (wf) (i : (⟨2, ![1000, N]⟩ : Shape).Idx) (q : (plainD N wf).contr.Idx) :
    ((plainD N wf).rhsIdx i q 1).val = (i 1).val := by
  unfold DotDims.rhsIdx
  rw [dif_neg (show ¬(1 : Fin 2) ∈ (plainD N wf).rhsBatch from List.not_mem_nil), dif_pos (show (1 : Fin 2) ∈ (plainD N wf).rhsNonContracting from List.mem_singleton.mpr rfl)]
  rfl

/-- The product into zero at `(p, k)`: re-index the contraction's sum by its one coordinate; the left index is then
    `(p, j)` and the right one `(j, k)`. -/
theorem matmul_plainD_zero_at {N : Nat} {φ₁ φ₂ : FTy} (wf)
    (l : FVec Ideal ⟨2, ![1000, 512]⟩ φ₁) (r : FVec Ideal ⟨2, ![512, N]⟩ φ₂) (p : Fin 1000) (k : Fin N) :
    matmul (plainD N wf) none l r (constant (F := Ideal) ⟨2, ![1000, N]⟩ .f32 0x00000000#32) (ix2 p k)
      = ∑ j : Fin 512, l (ix2 p j) * r (ix2 j k) := by
  refine (Ideal.matmul_constant_zero_apply (plainD N wf) none l r (ix2 p k)).trans ?_
  rw [← Equiv.sum_comp (contrEquiv1 (plainD N wf) 512 rfl rfl).symm]
  refine Finset.sum_congr rfl fun j _ => ?_
  have hj := contrEquiv1_symm_val (plainD N wf) 512 rfl rfl j
  have el : (plainD N wf).lhsIdx (ix2 p k) ((contrEquiv1 (plainD N wf) 512 rfl rfl).symm j) = ix2 p j :=
    funext fun a => Fin.ext (by
      match a with
      | ⟨0, _⟩ => exact plainD_lhs0 wf _ _
      | ⟨1, _⟩ => exact ((plainD N wf).lhsIdx_val_of_single rfl _ _).trans hj)
  have er : (plainD N wf).rhsIdx (ix2 p k) ((contrEquiv1 (plainD N wf) 512 rfl rfl).symm j) = ix2 j k :=
    funext fun a => Fin.ext (by
      match a with
      | ⟨0, _⟩ => exact ((plainD N wf).rhsIdx_val_of_single rfl _ _).trans hj
      | ⟨1, _⟩ => exact plainD_rhs1 wf _ _)
  rw [el, er]

/-- A 1000×512 by 512×N product accumulated into zero, at row `p` and column `k`: the sum over the 512 contraction
    coordinates of the products of the two entries. -/
theorem matmul_zero_at {N : Nat} {φ₁ φ₂ : FTy}
    (D : DotDims ⟨2, ![1000, 512]⟩ ⟨2, ![512, N]⟩ ⟨2, ![1000, N]⟩)
    (hlc : D.lhsContracting = [1]) (hrc : D.rhsContracting = [0])
    (hln : D.lhsNonContracting = [0]) (hrn : D.rhsNonContracting = [1])
    (hlb : D.lhsBatch = []) (hrb : D.rhsBatch = [])
    (l : FVec Ideal ⟨2, ![1000, 512]⟩ φ₁) (r : FVec Ideal ⟨2, ![512, N]⟩ φ₂) (p : Fin 1000) (k : Fin N) :
    matmul D none l r (constant (F := Ideal) ⟨2, ![1000, N]⟩ .f32 0x00000000#32) (ix2 p k)
      = ∑ j : Fin 512, l (ix2 p j) * r (ix2 j k) := by
  obtain ⟨lc, rc, ln, rn, lb, rb, wf⟩ := D
  dsimp only at hlc hrc hln hrn hlb hrb
  subst hlc hrc hln hrn hlb hrb
  exact matmul_plainD_zero_at wf l r p k

/-- The two products of the bodies, at an entry. -/
theorem matmul512_at {φ₁ φ₂ : FTy} (l : FVec Ideal S1000x512 φ₁) (r : FVec Ideal S512x512 φ₂) (p : Fin 1000) (k : Fin 512) :
    matmul dot_S1000x512_S512x512_S1000x512_1_0_0_1_n_n none l r (constant (F := Ideal) S1000x512 .f32 0x00000000#32) (ix2 p k)
      = ∑ j : Fin 512, l (ix2 p j) * r (ix2 j k) :=
  matmul_zero_at _ rfl rfl rfl rfl rfl rfl l r p k

theorem matmul128_at {φ₁ φ₂ : FTy} (l : FVec Ideal S1000x512 φ₁) (r : FVec Ideal S512x128 φ₂) (p : Fin 1000) (k : Fin 128) :
    matmul dot_S1000x512_S512x128_S1000x128_1_0_0_1_n_n none l r (constant (F := Ideal) S1000x128 .f32 0x00000000#32) (ix2 p k)
      = ∑ j : Fin 512, l (ix2 p j) * r (ix2 j k) :=
  matmul_zero_at _ rfl rfl rfl rfl rfl rfl l r p k

/-- The first body at `(p, k)`: the affine part clamped below at zero. -/
theorem k0_pay1_apply (v0 v3 : Vec Ideal S1000x512 .f32) (v5 v7 : Vec Ideal S512x512 .f32) (v10 : Vec Ideal S1x512 .f32)
    (p : Fin 1000) (k : Fin 512) :
    k0_pay1 (F := Ideal) v0 v3 v5 v7 v10 (ix2 p k) = reluAt v0 v3 v5 v7 (fun k => v10 (ix2 0 k)) p k := by
  unfold k0_pay1 reluAt lin
  simp only [maximumf_apply, addf_apply, broadcast_apply, shapeCast_self]
  rw [matmul512_at, matmul512_at, broadcastTo_1b_ab_apply, Ideal.ofBits_def, Ideal.ofBits_zero_f32]
  simp only [truncf_apply]

/-- The second body at `(p, k)`: the same. -/
theorem k1_pay1_apply (v0 v3 : Vec Ideal S1000x512 .f32) (v6 v8 : Vec Ideal S512x512 .f32) (v11 : Vec Ideal S1x512 .f32)
    (p : Fin 1000) (k : Fin 512) :
    k1_pay1 (F := Ideal) v0 v3 v6 v8 v11 (ix2 p k) = reluAt v0 v3 v6 v8 (fun k => v11 (ix2 0 k)) p k := by
  unfold k1_pay1 reluAt lin
  simp only [maximumf_apply, addf_apply, broadcast_apply, shapeCast_self]
  rw [matmul512_at, matmul512_at, broadcastTo_1b_ab_apply, Ideal.ofBits_def, Ideal.ofBits_zero_f32]
  simp only [truncf_apply]

/-! ## The third body: affine part, then the shifted log-softmax along the 128 lanes -/

/-- The source index of a lane reduction of a 1000×128 array, over row `p` at lane `j`, is `(p, j)`. -/
theorem lift_lane (h : S1000x128.Reduces [1] S1000) (p : Fin 1000) (j : Fin 128) : h.lift (ix1 p) j = ix2 p j :=
  funext fun a => Fin.ext (by
    match a with
    | ⟨0, _⟩ => rfl
    | ⟨1, _⟩ => rfl)

/-- The lane maximum of row `p`: the fold of `max` over the 128 lanes from the accumulator's word. -/
theorem laneMax_at (o : FVec Ideal S1000x128 .f32) (h : S1000x128.Reduces [1] S1000) (hφ : FKind.Formats .f32)
    (hacc : (0xFF800000#32 : BitVec FTy.f32.bits) = FKind.maximumf.neutral .f32 hφ) (p : Fin 1000) :
    multiReduction (F := Ideal) .maximumf [1] S1000 o 0xFF800000#32 h hφ hacc (ix1 p)
      = (Finset.univ : Finset (Fin 128)).fold max (Ideal.ofBits .f32 0xFF800000#32) (fun j => o (ix2 p j)) := by
  refine (Ideal.multiReduction_maximumf_single o 0xFF800000#32 h hφ hacc (ix1 p)).trans ?_
  have e : (o ∘ h.lift (ix1 p)) = fun j : Fin 128 => o (ix2 p j) := funext fun j => congrArg o (lift_lane h p j)
  rw [e, Ideal.ofBits_def]
  rfl

/-- The lane sum of row `p`. -/
theorem laneSum_at (e : FVec Ideal S1000x128 .f32) (h : S1000x128.Reduces [1] S1000) (hφ : FKind.Formats .f32)
    (hacc : (0x00000000#32 : BitVec FTy.f32.bits) = FKind.add.neutral .f32 hφ) (p : Fin 1000) :
    multiReduction (F := Ideal) .add [1] S1000 e 0x00000000#32 h hφ hacc (ix1 p) = ∑ j : Fin 128, e (ix2 p j) := by
  refine (Ideal.multiReduction_add_single e 0x00000000#32 h hφ hacc (ix1 p)).trans ?_
  exact Finset.sum_congr rfl fun j _ => congrArg e (lift_lane h p j)

/-- The exponential and the logarithm of a vector, at an index. -/
theorem exp_at {s : Shape} {φ : FTy} (a : FVec Ideal s φ) (i : s.Idx) : Idealize.ShloMosaic.exp a i = Ideal.exp (a i) := rfl
theorem log_at {s : Shape} {φ : FTy} (a : FVec Ideal s φ) (i : s.Idx) : Idealize.ShloMosaic.log a i = Ideal.log (a i) := rfl

/-- The softmax tail of the third body over any 1000×128 array `o`: at `(p, k)`, with `m` the lane maximum of row `p`,
    `(o[p,k] - m) - log Σ_j exp (o[p,j] - m)`. -/
theorem lsmTail_at (o : FVec Ideal S1000x128 .f32) (h : S1000x128.Reduces [1] S1000) (hφ hφ' : FKind.Formats .f32)
    (hmax : (0xFF800000#32 : BitVec FTy.f32.bits) = FKind.maximumf.neutral .f32 hφ)
    (hadd : (0x00000000#32 : BitVec FTy.f32.bits) = FKind.add.neutral .f32 hφ')
    (hc : S1000.ShapeCasts S1000x1) (hb : S1000x1.Broadcasts S1000x128) (p : Fin 1000) (k : Fin 128) :
    subf
        (subf o (broadcastTo S1000x128 (shapeCast S1000x1 (multiReduction (F := Ideal) .maximumf [1] S1000 o 0xFF800000#32 h hφ hmax) hc) hb))
        (broadcastTo S1000x128
          (Idealize.ShloMosaic.log (shapeCast S1000x1
            (multiReduction (F := Ideal) .add [1] S1000
              (Idealize.ShloMosaic.exp
                (subf o (broadcastTo S1000x128 (shapeCast S1000x1 (multiReduction (F := Ideal) .maximumf [1] S1000 o 0xFF800000#32 h hφ hmax) hc) hb)))
              0x00000000#32 h hφ' hadd) hc)) hb)
        (ix2 p k)
      = (o (ix2 p k) - (Finset.univ : Finset (Fin 128)).fold max (Ideal.ofBits .f32 0xFF800000#32) (fun j => o (ix2 p j)))
          - Ideal.log (∑ j : Fin 128,
              Ideal.exp (o (ix2 p j) - (Finset.univ : Finset (Fin 128)).fold max (Ideal.ofBits .f32 0xFF800000#32) (fun j => o (ix2 p j)))) := by
  have hs : ∀ c : Fin 128,
      subf o (broadcastTo S1000x128 (shapeCast S1000x1 (multiReduction (F := Ideal) .maximumf [1] S1000 o 0xFF800000#32 h hφ hmax) hc) hb) (ix2 p c)
        = o (ix2 p c) - (Finset.univ : Finset (Fin 128)).fold max (Ideal.ofBits .f32 0xFF800000#32) (fun j => o (ix2 p j)) := fun c => by
    rw [subf_apply, ValueLayout.broadcastTo_a1_ab_apply, ValueLayout.shapeCast_a_a1_apply, laneMax_at]
  rw [subf_apply, hs k, ValueLayout.broadcastTo_a1_ab_apply, log_at, ValueLayout.shapeCast_a_a1_apply, laneSum_at]
  simp only [exp_at, hs]

/-- The third body at `(p, k)`: the shifted log-softmax of row `p` of the affine part. -/
theorem k2_pay1_apply (v0 v3 : Vec Ideal S1000x512 .f32) (v6 v8 : Vec Ideal S512x128 .f32) (v11 : Vec Ideal S1x128 .f32)
    (p : Fin 1000) (k : Fin 128) :
    k2_pay1 (F := Ideal) v0 v3 v6 v8 v11 (ix2 p k) = lsmAt v0 v3 v6 v8 (fun k => v11 (ix2 0 k)) p k := by
  unfold k2_pay1
  refine (lsmTail_at _ _ _ _ _ _ _ _ p k).trans ?_
  unfold lsmAt rowMax lin
  simp only [addf_apply, matmul128_at, truncf_apply, shapeCast_self, broadcastTo_1b_ab_apply]

end Cert.KernelIdeal.Payload

end
-- ==== Proof.KChain.lean ====
/-
  The contents of the buffers between the segments of the idealized kernel program, read back to the launch
  memory.

  The program alternates host operations and kernel regions. Each stretch of host operations computes the
  neighbourhood means of the current node features — gather the source rows, add them into the destination rows,
  divide by the in-degree (at least one) — and reshapes the layer's bias to a row; each region then leaves
  the layer of what it finds (Region0, Region1, Region2). Nothing else changes: the source and destination
  index vectors computed by the first stretch, the weights and the biases pass through every later segment.
  Chaining these facts, the result array ends holding the three layers in sequence over the aggregation.
  The aggregation is carried as one function and never opened.
-/
import proofs.«170947_j13606456394538_1_alg».proof.Proof.Gen.KernelIdeal.Frame
import proofs.«170947_j13606456394538_1_alg».proof.Proof.Region0
import proofs.«170947_j13606456394538_1_alg».proof.Proof.Region1
import proofs.«170947_j13606456394538_1_alg».proof.Proof.Region2
import proofs.«170947_j13606456394538_1_alg».proof.Proof.Payload
import Idealize.ShloMosaic.Lib.StableHlo.Run
import Idealize.ShloMosaic.Lib.ValueLayout

set_option maxRecDepth 16384

noncomputable section

namespace Cert.KernelIdeal.KChain

open Cert.KernelIdeal Cert.KernelIdeal.Gen Cert.Spec
open Idealize.ShloMosaic Idealize.ShloMosaic.TcCoe Idealize.ShloMosaic.ValueIdx Idealize.SL.Sem Idealize.ShloMosaic.StableHlo

/-- The source vertices of the edges: row 0 of the edge list. -/
def srcOf (ei : (⟨S2x400000, .i32⟩ : BufTy).Contents (Elt Ideal)) : (⟨S400000, .i32⟩ : BufTy).Contents (Elt Ideal) :=
  shapeCast _ (extractStridedSlice S1x400000 ![0, 0] ei slices_S2x400000_S1x400000_0_0) shapeCasts_S1x400000_S400000

/-- The destination vertices of the edges: row 1 of the edge list. -/
def dstOf (ei : (⟨S2x400000, .i32⟩ : BufTy).Contents (Elt Ideal)) : (⟨S400000, .i32⟩ : BufTy).Contents (Elt Ideal) :=
  shapeCast _ (extractStridedSlice S1x400000 ![1, 0] ei slices_S2x400000_S1x400000_1_0) shapeCasts_S1x400000_S400000

/-- The neighbourhood means of the features `h` along the edges `src → dst`: the source rows (negative indices
    wrapped once) gathered, added into the destination rows from zero, divided by the number of incoming
    edges or by one where there is none. -/
def aggSD (src dst : (⟨S400000, .i32⟩ : BufTy).Contents (Elt Ideal)) (h : (⟨S50000x512, .f32⟩ : BufTy).Contents (Elt Ideal)) :
    (⟨S50000x512, .f32⟩ : BufTy).Contents (Elt Ideal) :=
  Host.divf (F := Ideal)
    (Host.scatterAdd scatter_S50000x512_S400000x1_S400000x512_1_0_0_1 (broadcastInDim S50000x512 ![] bcast_S_S50000x512 (constant (F := Ideal) S_ .f32 0x00000000#32))
      (broadcastInDim S400000x1 ![0] bcast_S400000_S400000x1_0 dst)
      (Host.gather gather_S50000x512_S400000x1_S400000x512_1_0_n_n_0_1_1512 h (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 50000#32))) src))))
    (broadcastInDim S50000x512 ![0, 1] bcast_S50000x1_S50000x512_0_1 (broadcastInDim S50000x1 ![0] bcast_S50000_S50000x1_0
      (maximumf (Host.scatterAdd scatter_S50000_S400000x1_S400000_n_0_0_1 (broadcastInDim S50000 ![] bcast_S_S50000 (constant (F := Ideal) S_ .f32 0x00000000#32))
          (broadcastInDim S400000x1 ![0] bcast_S400000_S400000x1_0 dst)
          (broadcastInDim S400000 ![] bcast_S_S400000 (constant (F := Ideal) S_ .f32 0x3F800000#32)))
        (broadcastInDim S50000 ![] bcast_S_S50000 (constant (F := Ideal) S_ .f32 0x3F800000#32)))))

variable (m : (ℓ : Loc nD τ sig) → Buf (Elt Ideal) ℓ) (ρ : Dev nD → PrngReg)

/-! ## After the first stretch of host operations (region 0's entry) -/

theorem W1_src (c : Dev nD) : W1 m ρ c (Proc.devRef .tc main_v1) = srcOf (m ((c : Thread nD τ).loc main_arg1)) := by
  show StableHlo.after hostOps0 (W0 m ρ c) (Proc.devRef .tc main_v1) = _
  after_results
  rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results
  rfl

set_option maxHeartbeats 4000000 in
theorem W1_mean (c : Dev nD) : W1 m ρ c (Proc.devRef .tc main_v22)
    = aggSD (srcOf (m ((c : Thread nD τ).loc main_arg1))) (dstOf (m ((c : Thread nD τ).loc main_arg1))) (m ((c : Thread nD τ).loc main_arg0)) := by
  show StableHlo.after hostOps0 (W0 m ρ c) (Proc.devRef .tc main_v22) = _
  after_results_simp
  rfl

theorem W1_bias (c : Dev nD) : W1 m ρ c (Proc.devRef .tc main_v23)
    = shapeCast _ (m ((c : Thread nD τ).loc main_arg3)) shapeCasts_S512_S1x512 := by
  show StableHlo.after hostOps0 (W0 m ρ c) (Proc.devRef .tc main_v23) = _
  after_results
  rfl

/-- A stretch of host operations leaves a buffer it does not write as it found it. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps hostOps0
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps hostOps0

/-! ## After region 0: the first hidden layer; everything it does not stage is as before -/

theorem W2_h1 (c : Dev nD) : W2 m ρ c (Proc.devRef .tc main_v24)
    = reluLayer (W1 m ρ c (Proc.devRef .tc main_v22)) (W1 m ρ c (Proc.devRef .tc main_arg0)) (W1 m ρ c (Proc.devRef .tc main_arg2))
        (W1 m ρ c (Proc.devRef .tc main_arg4)) (fun k => W1 m ρ c (Proc.devRef .tc main_v23) (ix2 0 k)) :=
  (W2_arr m ρ c 5).trans (Region0.final (V1 m ρ) Payload.k0_pay1_apply c)

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)
theorem W2_arg8 (c : Dev nD) : W2 m ρ c (Proc.devRef .tc main_arg8) = W1 m ρ c (Proc.devRef .tc main_arg8) :=
  W2_of_ne m ρ c main_arg8 (by decide)
theorem W2_arg9 (c : Dev nD) : W2 m ρ c (Proc.devRef .tc main_arg9) = W1 m ρ c (Proc.devRef .tc main_arg9) :=
  W2_of_ne m ρ c main_arg9 (by decide)
theorem W2_arg10 (c : Dev nD) : W2 m ρ c (Proc.devRef .tc main_arg10) = W1 m ρ c (Proc.devRef .tc main_arg10) :=
  W2_of_ne m ρ c main_arg10 (by decide)

/-! ## After the second stretch (region 1's entry) -/

set_option maxHeartbeats 4000000 in
theorem W3_mean (c : Dev nD) : W3 m ρ c (Proc.devRef .tc main_v43)
    = aggSD (W2 m ρ c (Proc.devRef .tc main_v1)) (W2 m ρ c (Proc.devRef .tc main_v3)) (W2 m ρ c (Proc.devRef .tc main_v24)) := by
  show StableHlo.after hostOps1 (W2 m ρ c) (Proc.devRef .tc main_v43) = _
  after_results_simp
  rfl

theorem W3_bias (c : Dev nD) : W3 m ρ c (Proc.devRef .tc main_v44)
    = shapeCast _ (W2 m ρ c (Proc.devRef .tc main_arg6)) shapeCasts_S512_S1x512 := by
  show StableHlo.after hostOps1 (W2 m ρ c) (Proc.devRef .tc main_v44) = _
  after_results
  rfl

theorem W3_v24 (c : Dev nD) : W3 m ρ c (Proc.devRef .tc main_v24) = W2 m ρ c (Proc.devRef .tc main_v24) := by
  show StableHlo.after hostOps1 (W2 m ρ c) (Proc.devRef .tc main_v24) = _
  host_keeps hostOps1
theorem W3_arg5 (c : Dev nD) : W3 m ρ c (Proc.devRef .tc main_arg5) = W2 m ρ c (Proc.devRef .tc main_arg5) := by
  show StableHlo.after hostOps1 (W2 m ρ c) (Proc.devRef .tc main_arg5) = _
  host_keeps hostOps1
theorem W3_arg7 (c : Dev nD) : W3 m ρ c (Proc.devRef .tc main_arg7) = W2 m ρ c (Proc.devRef .tc main_arg7) := by
  show StableHlo.after hostOps1 (W2 m ρ c) (Proc.devRef .tc main_arg7) = _
  host_keeps hostOps1
theorem W3_v1 (c : Dev nD) : W3 m ρ c (Proc.devRef .tc main_v1) = W2 m ρ c (Proc.devRef .tc main_v1) := by
  show StableHlo.after hostOps1 (W2 m ρ c) (Proc.devRef .tc main_v1) = _
  host_keeps hostOps1
theorem W3_v3 (c : Dev nD) : W3 m ρ c (Proc.devRef .tc main_v3) = W2 m ρ c (Proc.devRef .tc main_v3) := by
  show StableHlo.after hostOps1 (W2 m ρ c) (Proc.devRef .tc main_v3) = _
  host_keeps hostOps1
theorem W3_arg8 (c : Dev nD) : W3 m ρ c (Proc.devRef .tc main_arg8) = W2 m ρ c (Proc.devRef .tc main_arg8) := by
  show StableHlo.after hostOps1 (W2 m ρ c) (Proc.devRef .tc main_arg8) = _
  host_keeps hostOps1
theorem W3_arg9 (c : Dev nD) : W3 m ρ c (Proc.devRef .tc main_arg9) = W2 m ρ c (Proc.devRef .tc main_arg9) := by
  show StableHlo.after hostOps1 (W2 m ρ c) (Proc.devRef .tc main_arg9) = _
  host_keeps hostOps1
theorem W3_arg10 (c : Dev nD) : W3 m ρ c (Proc.devRef .tc main_arg10) = W2 m ρ c (Proc.devRef .tc main_arg10) := by
  show StableHlo.after hostOps1 (W2 m ρ c) (Proc.devRef .tc main_arg10) = _
  host_keeps hostOps1

/-! ## After region 1: the second hidden layer -/

theorem W4_h2 (c : Dev nD) : W4 m ρ c (Proc.devRef .tc main_v45)
    = reluLayer (W3 m ρ c (Proc.devRef .tc main_v43)) (W3 m ρ c (Proc.devRef .tc main_v24)) (W3 m ρ c (Proc.devRef .tc main_arg5))
        (W3 m ρ c (Proc.devRef .tc main_arg7)) (fun k => W3 m ρ c (Proc.devRef .tc main_v44) (ix2 0 k)) :=
  (W4_arr m ρ c 5).trans (Region1.final (V3 m ρ) Payload.k1_pay1_apply c)

theorem W4_v1 (c : Dev nD) : W4 m ρ c (Proc.devRef .tc main_v1) = W3 m ρ c (Proc.devRef .tc main_v1) :=
  W4_of_ne m ρ c main_v1 (by decide)
theorem W4_v3 (c : Dev nD) : W4 m ρ c (Proc.devRef .tc main_v3) = W3 m ρ c (Proc.devRef .tc main_v3) :=
  W4_of_ne m ρ c main_v3 (by decide)
theorem W4_arg8 (c : Dev nD) : W4 m ρ c (Proc.devRef .tc main_arg8) = W3 m ρ c (Proc.devRef .tc main_arg8) :=
  W4_of_ne m ρ c main_arg8 (by decide)
theorem W4_arg9 (c : Dev nD) : W4 m ρ c (Proc.devRef .tc main_arg9) = W3 m ρ c (Proc.devRef .tc main_arg9) :=
  W4_of_ne m ρ c main_arg9 (by decide)
theorem W4_arg10 (c : Dev nD) : W4 m ρ c (Proc.devRef .tc main_arg10) = W3 m ρ c (Proc.devRef .tc main_arg10) :=
  W4_of_ne m ρ c main_arg10 (by decide)

/-! ## After the third stretch (region 2's entry) -/

set_option maxHeartbeats 4000000 in
theorem W5_mean (c : Dev nD) : W5 m ρ c (Proc.devRef .tc main_v64)
    = aggSD (W4 m ρ c (Proc.devRef .tc main_v1)) (W4 m ρ c (Proc.devRef .tc main_v3)) (W4 m ρ c (Proc.devRef .tc main_v45)) := by
  show StableHlo.after hostOps2 (W4 m ρ c) (Proc.devRef .tc main_v64) = _
  after_results_simp
  rfl

theorem W5_bias (c : Dev nD) : W5 m ρ c (Proc.devRef .tc main_v65)
    = shapeCast _ (W4 m ρ c (Proc.devRef .tc main_arg9)) shapeCasts_S128_S1x128 := by
  show StableHlo.after hostOps2 (W4 m ρ c) (Proc.devRef .tc main_v65) = _
  after_results
  rfl

theorem W5_v45 (c : Dev nD) : W5 m ρ c (Proc.devRef .tc main_v45) = W4 m ρ c (Proc.devRef .tc main_v45) := by
  show StableHlo.after hostOps2 (W4 m ρ c) (Proc.devRef .tc main_v45) = _
  host_keeps hostOps2
theorem W5_arg8 (c : Dev nD) : W5 m ρ c (Proc.devRef .tc main_arg8) = W4 m ρ c (Proc.devRef .tc main_arg8) := by
  show StableHlo.after hostOps2 (W4 m ρ c) (Proc.devRef .tc main_arg8) = _
  host_keeps hostOps2
theorem W5_arg10 (c : Dev nD) : W5 m ρ c (Proc.devRef .tc main_arg10) = W4 m ρ c (Proc.devRef .tc main_arg10) := by
  show StableHlo.after hostOps2 (W4 m ρ c) (Proc.devRef .tc main_arg10) = _
  host_keeps hostOps2

/-! ## After region 2: the output layer -/

theorem W6_out (c : Dev nD) : W6 m ρ c (Proc.devRef .tc main_v66)
    = lsmLayer (W5 m ρ c (Proc.devRef .tc main_v64)) (W5 m ρ c (Proc.devRef .tc main_v45)) (W5 m ρ c (Proc.devRef .tc main_arg8))
        (W5 m ρ c (Proc.devRef .tc main_arg10)) (fun k => W5 m ρ c (Proc.devRef .tc main_v65) (ix2 0 k)) :=
  (W6_arr m ρ c 5).trans (Region2.final (V5 m ρ) Payload.k2_pay1_apply c)

/-! ## The chain -/

/-- A bias reshaped to a row, read along the row, is the bias. -/
theorem bias_row {D : Nat} (b : (⟨1, ![D]⟩ : Shape).Idx → EReal) (h : (⟨1, ![D]⟩ : Shape).ShapeCasts ⟨2, ![1, D]⟩) :
    (fun k : Fin D => shapeCast ⟨2, ![1, D]⟩ b h (ix2 (0 : Fin 1) k)) = fun k => b (ix1 k) :=
  funext fun k => ValueIdx.shapeCast_a_1a_apply b h 0 k

/-- THE RESULT ARRAY after the run: the three layers in sequence over the aggregation along the edge list, of
    the argument arrays as launched. -/
theorem result_eq (c : Dev nD) : W6 m ρ c (Proc.devRef .tc main_v66)
    = sage3 (aggSD (srcOf (m ((c : Thread nD τ).loc main_arg1))) (dstOf (m ((c : Thread nD τ).loc main_arg1)))) (m ((c : Thread nD τ).loc main_arg0))
        (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg10))
        (fun k => (m ((c : Thread nD τ).loc main_arg3)) (ix1 k)) (fun k => (m ((c : Thread nD τ).loc main_arg6)) (ix1 k)) (fun k => (m ((c : Thread nD τ).loc main_arg9)) (ix1 k)) := by
  have hsrc4 : W4 m ρ c (Proc.devRef .tc main_v1) = srcOf (m ((c : Thread nD τ).loc main_arg1)) := by
    rw [W4_v1, W3_v1, W2_v1, W1_src]
  have hdst4 : W4 m ρ c (Proc.devRef .tc main_v3) = dstOf (m ((c : Thread nD τ).loc main_arg1)) := by
    rw [W4_v3, W3_v3, W2_v3, W1_dst]
  have hsrc2 : W2 m ρ c (Proc.devRef .tc main_v1) = srcOf (m ((c : Thread nD τ).loc main_arg1)) := by
    rw [W2_v1, W1_src]
  have hdst2 : W2 m ρ c (Proc.devRef .tc main_v3) = dstOf (m ((c : Thread nD τ).loc main_arg1)) := by
    rw [W2_v3, W1_dst]
  -- the first hidden layer
  have h1 : W2 m ρ c (Proc.devRef .tc main_v24)
      = reluLayer (aggSD (srcOf (m ((c : Thread nD τ).loc main_arg1))) (dstOf (m ((c : Thread nD τ).loc main_arg1))) (m ((c : Thread nD τ).loc main_arg0))) (m ((c : Thread nD τ).loc main_arg0))
          (m ((c : Thread nD τ).loc main_arg2)) (m ((c : Thread nD τ).loc main_arg4)) (fun k => (m ((c : Thread nD τ).loc main_arg3)) (ix1 k)) := by
    rw [W2_h1, W1_mean, W1_arg0, W1_arg2, W1_arg4, W1_bias, bias_row]
  -- the second hidden layer
  have h2 : W4 m ρ c (Proc.devRef .tc main_v45)
      = reluLayer (aggSD (srcOf (m ((c : Thread nD τ).loc main_arg1))) (dstOf (m ((c : Thread nD τ).loc main_arg1))) (W2 m ρ c (Proc.devRef .tc main_v24))) (W2 m ρ c (Proc.devRef .tc main_v24))
          (m ((c : Thread nD τ).loc main_arg5)) (m ((c : Thread nD τ).loc main_arg7)) (fun k => (m ((c : Thread nD τ).loc main_arg6)) (ix1 k)) := by
    rw [W4_h2, W3_mean, hsrc2, hdst2, W3_v24, W3_arg5, W2_arg5, W1_arg5, W3_arg7, W2_arg7, W1_arg7, W3_bias, W2_arg6, W1_arg6, bias_row]
  -- the output layer
  rw [W6_out, W5_mean, hsrc4, hdst4, W5_v45, W5_arg8, W4_arg8, W3_arg8, W2_arg8, W1_arg8, W5_arg10, W4_arg10, W3_arg10, W2_arg10, W1_arg10,
    W5_bias, W4_arg9, W3_arg9, W2_arg9, W1_arg9, bias_row, h2, h1]
  rfl

end Cert.KernelIdeal.KChain

end
-- ==== Proof.RefRun.lean ====
/-
  The reference program's run, read back in stages.

  The program is a straight line of 118 host operations: three graph layers in sequence. Running a line of operations
  from buffer contents `V` leaves the contents `after ops V`; running two lines one after the other is running their
  concatenation (`after_append`). So the line is cut where the network's layers end — the first layer's 38 operations,
  the second's 34, the third's 31 affine ones and the 15 of its log-softmax — and each piece is read on its own, from
  ANY contents that hold what the piece reads: after it, its result buffer holds that layer's stage of the arguments,
  the two edge-index rows every layer reads are still there, and the arguments it does not write are unchanged. Chaining
  the four readings gives the result buffer after the whole line; no operation writes an argument.
-/
import proofs.«170947_j13606456394538_1_alg».proof.Proof.RefRead
import Idealize.ShloMosaic.Lib.StableHlo.Run

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A value carried to a buffer's own type and back is the value. -/
theorem cast_cast_cancel {α β : Type} (h : α = β) (h' : β = α) (v : β) : cast h (cast h' v) = v := by
  subst h; rfl

/-- The affine stage's buffer and the result's buffer hold 50000 × 128 arrays: reading or writing them at that type
    changes nothing. -/
theorem ofBuf_v80 (x : (⟨S50000x128, .f32⟩ : BufTy).Contents (Elt F)) :
    (TRef.of (T := ⟨S50000x128, .f32⟩) main_v80).ofBuf x = x := rfl
theorem toBuf_v81 (x : (⟨S50000x128, .f32⟩ : BufTy).Contents (Elt F)) :
    (TRef.of (T := ⟨S50000x128, .f32⟩) main_v81).toBuf x = x := rfl

/-- The first layer's 38 operations. -/
abbrev opsA : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S50000x512_S400000x1_S400000x512_1_0_n_n_0_1_1512 x i) : (⟨S50000x512, .f32⟩ : BufTy).Contents (Elt F) → (⟨S400000x1, .i32⟩ : BufTy).Contents (Elt F) → (⟨S400000x512, .f32⟩ : BufTy).Contents (Elt F)),
    nullary main_cst (constant S_ .f32 0x00000000#32),
    unary main_cst main_v11 (broadcastInDim S50000x512 ![] bcast_S_S50000x512 : (⟨S_, .f32⟩ : BufTy).Contents (Elt F) → (⟨S50000x512, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    nullary main_cst_1 (constant S_ .f32 0x3F800000#32),
    unary main_cst_1 main_v14 (broadcastInDim S400000 ![] bcast_S_S400000 : (⟨S_, .f32⟩ : BufTy).Contents (Elt F) → (⟨S400000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S400000x1 ![0] bcast_S400000_S400000x1_0 : (⟨S400000, .i32⟩ : BufTy).Contents (Elt F) → (⟨S400000x1, .i32⟩ : BufTy).Contents (Elt F)),
    ternary main_v15 main_v16 main_v14 main_v17 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x512 ![0, 1] bcast_S50000x1_S50000x512_0_1 : (⟨S50000x1, .f32⟩ : BufTy).Contents (Elt F) → (⟨S50000x512, .f32⟩ : BufTy).Contents (Elt F)),
    binary main_v13 main_v21 main_v22 (Host.divf : (⟨S50000x512, .f32⟩ : BufTy).Contents (Elt F) → (⟨S50000x512, .f32⟩ : BufTy).Contents (Elt F) → (⟨S50000x512, .f32⟩ : BufTy).Contents (Elt F)),
    binary main_v22 main_arg2 main_v23 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_arg3 main_v24 (broadcastInDim S1x512 ![1] bcast_S512_S1x512_1 : (⟨S512, .f32⟩ : BufTy).Contents (Elt F) → (⟨S1x512, .f32⟩ : BufTy).Contents (Elt F)),
    unary main_v24 main_v25 (broadcastInDim S50000x512 ![0, 1] bcast_S1x512_S50000x512_0_1 : (⟨S1x512, .f32⟩ : BufTy).Contents (Elt F) → (⟨S50000x512, .f32⟩ : BufTy).Contents (Elt F)),
    binary main_v23 main_v25 main_v26 (addf : (⟨S50000x512, .f32⟩ : BufTy).Contents (Elt F) → (⟨S50000x512, .f32⟩ : BufTy).Contents (Elt F) → (⟨S50000x512, .f32⟩ : BufTy).Contents (Elt F)),
    binary main_arg0 main_arg4 main_v27 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    binary main_v26 main_v27 main_v28 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x512, .f32⟩) main_call0_v0) (broadcastInDim S50000x512 ![] bcast_S_S50000x512),
    TRef.binary (TRef.of (T := ⟨S50000x512, .f32⟩) main_v28) (TRef.of (T := ⟨S50000x512, .f32⟩) main_call0_v0) (TRef.of (T := ⟨S50000x512, .f32⟩) main_v29) maximumf ]
/-- The second layer's 34 operations. -/
abbrev opsB : List (HloOp τ sig (Elt F)) :=
  [ nullary main_c_4 (constantI S_ 32 0#32),
    unary main_c_4 main_v30 (broadcastInDim S400000 ![] bcast_S_S400000 : (⟨S_, .i32⟩ : BufTy).Contents (Elt F) → (⟨S400000, .i32⟩ : BufTy).Contents (Elt F)),
    binary main_v1 main_v30 main_v31 (cmpi .slt : (⟨S400000, .i32⟩ : BufTy).Contents (Elt F) → (⟨S400000, .i32⟩ : BufTy).Contents (Elt F) → (⟨S400000, .i1⟩ : BufTy).Contents (Elt F)),
    nullary main_c_5 (constantI S_ 32 50000#32),
    unary main_c_5 main_v32 (broadcastInDim S400000 ![] bcast_S_S400000 : (⟨S_, .i32⟩ : BufTy).Contents (Elt F) → (⟨S400000, .i32⟩ : BufTy).Contents (Elt F)),
    binary main_v1 main_v32 main_v33 (addi : (⟨S400000, .i32⟩ : BufTy).Contents (Elt F) → (⟨S400000, .i32⟩ : BufTy).Contents (Elt F) → (⟨S400000, .i32⟩ : BufTy).Contents (Elt F)),
    ternary main_v31 main_v33 main_v1 main_v34 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v34 main_v35 (broadcastInDim S400000x1 ![0] bcast_S400000_S400000x1_0 : (⟨S400000, .i32⟩ : BufTy).Contents (Elt F) → (⟨S400000x1, .i32⟩ : BufTy).Contents (Elt F)),
    binary main_v29 main_v35 main_v36 ((fun x i => Host.gather gather_S50000x512_S400000x1_S400000x512_1_0_n_n_0_1_1512 x i) : (⟨S50000x512, .f32⟩ : BufTy).Contents (Elt F) → (⟨S400000x1, .i32⟩ : BufTy).Contents (Elt F) → (⟨S400000x512, .f32⟩ : BufTy).Contents (Elt F)),
    nullary main_cst_6 (constant S_ .f32 0x00000000#32),
    unary main_cst_6 main_v37 (broadcastInDim S50000x512 ![] bcast_S_S50000x512 : (⟨S_, .f32⟩ : BufTy).Contents (Elt F) → (⟨S50000x512, .f32⟩ : BufTy).Contents (Elt F)),
    unary main_v3 main_v38 (broadcastInDim S400000x1 ![0] bcast_S400000_S400000x1_0 : (⟨S400000, .i32⟩ : BufTy).Contents (Elt F) → (⟨S400000x1, .i32⟩ : BufTy).Contents (Elt F)),
    ternary main_v37 main_v38 main_v36 main_v39 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    nullary main_cst_7 (constant S_ .f32 0x3F800000#32),
    unary main_cst_7 main_v40 (broadcastInDim S400000 ![] bcast_S_S400000 : (⟨S_, .f32⟩ : BufTy).Contents (Elt F) → (⟨S400000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    unary main_v3 main_v42 (broadcastInDim S400000x1 ![0] bcast_S400000_S400000x1_0 : (⟨S400000, .i32⟩ : BufTy).Contents (Elt F) → (⟨S400000x1, .i32⟩ : BufTy).Contents (Elt F)),
    ternary main_v41 main_v42 main_v40 main_v43 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x512 ![0, 1] bcast_S50000x1_S50000x512_0_1 : (⟨S50000x1, .f32⟩ : BufTy).Contents (Elt F) → (⟨S50000x512, .f32⟩ : BufTy).Contents (Elt F)),
    binary main_v39 main_v47 main_v48 (Host.divf : (⟨S50000x512, .f32⟩ : BufTy).Contents (Elt F) → (⟨S50000x512, .f32⟩ : BufTy).Contents (Elt F) → (⟨S50000x512, .f32⟩ : BufTy).Contents (Elt F)),
    binary main_v48 main_arg5 main_v49 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_arg6 main_v50 (broadcastInDim S1x512 ![1] bcast_S512_S1x512_1 : (⟨S512, .f32⟩ : BufTy).Contents (Elt F) → (⟨S1x512, .f32⟩ : BufTy).Contents (Elt F)),
    unary main_v50 main_v51 (broadcastInDim S50000x512 ![0, 1] bcast_S1x512_S50000x512_0_1 : (⟨S1x512, .f32⟩ : BufTy).Contents (Elt F) → (⟨S50000x512, .f32⟩ : BufTy).Contents (Elt F)),
    binary main_v49 main_v51 main_v52 (addf : (⟨S50000x512, .f32⟩ : BufTy).Contents (Elt F) → (⟨S50000x512, .f32⟩ : BufTy).Contents (Elt F) → (⟨S50000x512, .f32⟩ : BufTy).Contents (Elt F)),
    binary main_v29 main_arg7 main_v53 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    binary main_v52 main_v53 main_v54 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x512, .f32⟩) main_call1_v0) (broadcastInDim S50000x512 ![] bcast_S_S50000x512),
    TRef.binary (TRef.of (T := ⟨S50000x512, .f32⟩) main_v54) (TRef.of (T := ⟨S50000x512, .f32⟩) main_call1_v0) (TRef.of (T := ⟨S50000x512, .f32⟩) main_v55) maximumf ]
/-- The third layer's affine part: 31 operations. -/
abbrev opsC1 : List (HloOp τ sig (Elt F)) :=
  [ nullary main_c_10 (constantI S_ 32 0#32),
    unary main_c_10 main_v56 (broadcastInDim S400000 ![] bcast_S_S400000 : (⟨S_, .i32⟩ : BufTy).Contents (Elt F) → (⟨S400000, .i32⟩ : BufTy).Contents (Elt F)),
    binary main_v1 main_v56 main_v57 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v58 (broadcastInDim S400000 ![] bcast_S_S400000 : (⟨S_, .i32⟩ : BufTy).Contents (Elt F) → (⟨S400000, .i32⟩ : BufTy).Contents (Elt F)),
    binary main_v1 main_v58 main_v59 (addi : (⟨S400000, .i32⟩ : BufTy).Contents (Elt F) → (⟨S400000, .i32⟩ : BufTy).Contents (Elt F) → (⟨S400000, .i32⟩ : BufTy).Contents (Elt F)),
    ternary main_v57 main_v59 main_v1 main_v60 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v60 main_v61 (broadcastInDim S400000x1 ![0] bcast_S400000_S400000x1_0 : (⟨S400000, .i32⟩ : BufTy).Contents (Elt F) → (⟨S400000x1, .i32⟩ : BufTy).Contents (Elt F)),
    binary main_v55 main_v61 main_v62 ((fun x i => Host.gather gather_S50000x512_S400000x1_S400000x512_1_0_n_n_0_1_1512 x i) : (⟨S50000x512, .f32⟩ : BufTy).Contents (Elt F) → (⟨S400000x1, .i32⟩ : BufTy).Contents (Elt F) → (⟨S400000x512, .f32⟩ : BufTy).Contents (Elt F)),
    nullary main_cst_12 (constant S_ .f32 0x00000000#32),
    unary main_cst_12 main_v63 (broadcastInDim S50000x512 ![] bcast_S_S50000x512 : (⟨S_, .f32⟩ : BufTy).Contents (Elt F) → (⟨S50000x512, .f32⟩ : BufTy).Contents (Elt F)),
    unary main_v3 main_v64 (broadcastInDim S400000x1 ![0] bcast_S400000_S400000x1_0 : (⟨S400000, .i32⟩ : BufTy).Contents (Elt F) → (⟨S400000x1, .i32⟩ : BufTy).Contents (Elt F)),
    ternary main_v63 main_v64 main_v62 main_v65 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    nullary main_cst_13 (constant S_ .f32 0x3F800000#32),
    unary main_cst_13 main_v66 (broadcastInDim S400000 ![] bcast_S_S400000 : (⟨S_, .f32⟩ : BufTy).Contents (Elt F) → (⟨S400000, .f32⟩ : BufTy).Contents (Elt F)),
    nullary main_cst_14 (constant S_ .f32 0x00000000#32),
    unary main_cst_14 main_v67 (broadcastInDim S50000 ![] bcast_S_S50000 : (⟨S_, .f32⟩ : BufTy).Contents (Elt F) → (⟨S50000, .f32⟩ : BufTy).Contents (Elt F)),
    unary main_v3 main_v68 (broadcastInDim S400000x1 ![0] bcast_S400000_S400000x1_0 : (⟨S400000, .i32⟩ : BufTy).Contents (Elt F) → (⟨S400000x1, .i32⟩ : BufTy).Contents (Elt F)),
    ternary main_v67 main_v68 main_v66 main_v69 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_15 (constant S_ .f32 0x3F800000#32),
    unary main_cst_15 main_v70 (broadcastInDim S50000 ![] bcast_S_S50000 : (⟨S_, .f32⟩ : BufTy).Contents (Elt F) → (⟨S50000, .f32⟩ : BufTy).Contents (Elt F)),
    binary main_v69 main_v70 main_v71 (maximumf : (⟨S50000, .f32⟩ : BufTy).Contents (Elt F) → (⟨S50000, .f32⟩ : BufTy).Contents (Elt F) → (⟨S50000, .f32⟩ : BufTy).Contents (Elt F)),
    unary main_v71 main_v72 (broadcastInDim S50000x1 ![0] bcast_S50000_S50000x1_0 : (⟨S50000, .f32⟩ : BufTy).Contents (Elt F) → (⟨S50000x1, .f32⟩ : BufTy).Contents (Elt F)),
    unary main_v72 main_v73 (broadcastInDim S50000x512 ![0, 1] bcast_S50000x1_S50000x512_0_1 : (⟨S50000x1, .f32⟩ : BufTy).Contents (Elt F) → (⟨S50000x512, .f32⟩ : BufTy).Contents (Elt F)),
    binary main_v65 main_v73 main_v74 (Host.divf : (⟨S50000x512, .f32⟩ : BufTy).Contents (Elt F) → (⟨S50000x512, .f32⟩ : BufTy).Contents (Elt F) → (⟨S50000x512, .f32⟩ : BufTy).Contents (Elt F)),
    binary main_v74 main_arg8 main_v75 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg9 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    binary main_v55 main_arg10 main_v79 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    binary main_v78 main_v79 main_v80 (addf : (⟨S50000x128, .f32⟩ : BufTy).Contents (Elt F) → (⟨S50000x128, .f32⟩ : BufTy).Contents (Elt F) → (⟨S50000x128, .f32⟩ : BufTy).Contents (Elt F)) ]
/-- The third layer's log-softmax: 15 operations. -/
abbrev opsC2 : List (HloOp τ sig (Elt F)) :=
  [ TRef.nullary (TRef.of (T := ⟨S_, .f32⟩) main_call2_cst) (constant S_ .f32 0xFF800000#32),
    TRef.binary (TRef.of (T := ⟨S50000x128, .f32⟩) main_v80) (TRef.of (T := ⟨S_, .f32⟩) main_call2_cst) (TRef.of (T := ⟨S50000, .f32⟩) main_call2_v0) (fun x v => Host.reduce FloatOps.maximumf x v reducesTo_S50000x128_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x128, .f32⟩) main_call2_v4) (broadcastInDim S50000x128 ![0, 1] bcast_S50000x1_S50000x128_0_1),
    TRef.binary (TRef.of (T := ⟨S50000x128, .f32⟩) main_v80) (TRef.of (T := ⟨S50000x128, .f32⟩) main_call2_v4) (TRef.of (T := ⟨S50000x128, .f32⟩) main_call2_v5) subf,
    TRef.unary (TRef.of (T := ⟨S50000x128, .f32⟩) main_call2_v5) (TRef.of (T := ⟨S50000x128, .f32⟩) main_call2_v6) Host.exp,
    TRef.nullary (TRef.of (T := ⟨S_, .f32⟩) main_call2_cst_1) (constant S_ .f32 0x00000000#32),
    TRef.binary (TRef.of (T := ⟨S50000x128, .f32⟩) main_call2_v6) (TRef.of (T := ⟨S_, .f32⟩) main_call2_cst_1) (TRef.of (T := ⟨S50000, .f32⟩) main_call2_v7) (fun x v => Host.reduceAdd x v reducesTo_S50000x128_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x128, .f32⟩) main_call2_v10) (broadcastInDim S50000x128 ![0, 1] bcast_S50000x1_S50000x128_0_1),
    TRef.binary (TRef.of (T := ⟨S50000x128, .f32⟩) main_call2_v5) (TRef.of (T := ⟨S50000x128, .f32⟩) main_call2_v10) (TRef.of (T := ⟨S50000x128, .f32⟩) main_v81) subf ]

/-! ## The first layer -/

set_option maxRecDepth 8192 in
set_option maxHeartbeats 4000000 in
/-- After the first layer's operations its result holds the first layer's stage of the arguments. -/
theorem stageA_v29 (V : Valuation τ sig (Elt F)) :
    after opsA V (Proc.devRef .tc main_v29)
      = val_main_v29 (F := F) (V (Proc.devRef .tc main_arg0)) (V (Proc.devRef .tc main_arg1)) (V (Proc.devRef .tc main_arg2)) (V (Proc.devRef .tc main_arg3)) (V (Proc.devRef .tc main_arg4)) := by
  after_results_simp
  rfl

set_option maxRecDepth 8192 in
set_option maxHeartbeats 4000000 in
/-- The two edge-index rows, which every layer reads. -/
theorem stageA_v1 (V : Valuation τ sig (Elt F)) :
    after opsA V (Proc.devRef .tc main_v1) = val_main_v1 (F := F) (V (Proc.devRef .tc main_arg1)) := by
  after_results_simp
  rfl

set_option maxRecDepth 8192 in
set_option maxHeartbeats 4000000 in
theorem stageA_v3 (V : Valuation τ sig (Elt F)) :
    after opsA V (Proc.devRef .tc main_v3) = val_main_v3 (F := F) (V (Proc.devRef .tc main_arg1)) := by
  after_results_simp
  rfl

/-! The later layers' arguments are not written. -/
set_option maxRecDepth 8192 in
set_option maxHeartbeats 4000000 in
theorem stageA_arg5 (V : Valuation τ sig (Elt F)) :
    after opsA V (Proc.devRef .tc main_arg5) = V (Proc.devRef .tc main_arg5) := by
  after_results_simp

set_option maxRecDepth 8192 in
set_option maxHeartbeats 4000000 in
theorem stageA_arg6 (V : Valuation τ sig (Elt F)) :
    after opsA V (Proc.devRef .tc main_arg6) = V (Proc.devRef .tc main_arg6) := by
  after_results_simp

set_option maxRecDepth 8192 in
set_option maxHeartbeats 4000000 in
theorem stageA_arg7 (V : Valuation τ sig (Elt F)) :
    after opsA V (Proc.devRef .tc main_arg7) = V (Proc.devRef .tc main_arg7) := by
  after_results_simp

set_option maxRecDepth 8192 in
set_option maxHeartbeats 4000000 in
theorem stageA_arg8 (V : Valuation τ sig (Elt F)) :
    after opsA V (Proc.devRef .tc main_arg8) = V (Proc.devRef .tc main_arg8) := by
  after_results_simp

set_option maxRecDepth 8192 in
set_option maxHeartbeats 4000000 in
theorem stageA_arg9 (V : Valuation τ sig (Elt F)) :
    after opsA V (Proc.devRef .tc main_arg9) = V (Proc.devRef .tc main_arg9) := by
  after_results_simp

set_option maxRecDepth 8192 in
set_option maxHeartbeats 4000000 in
theorem stageA_arg10 (V : Valuation τ sig (Elt F)) :
    after opsA V (Proc.devRef .tc main_arg10) = V (Proc.devRef .tc main_arg10) := by
  after_results_simp

/-! ## The second layer -/

set_option maxRecDepth 8192 in
set_option maxHeartbeats 4000000 in
/-- After the second layer's operations, from any contents holding the first layer's result and the two edge-index rows,
    its result holds the second layer's stage. -/
theorem stageB_v55 (V : Valuation τ sig (Elt F)) (a0 : (⟨S50000x512, .f32⟩ : BufTy).Contents (Elt F)) (a1 : (⟨S2x400000, .i32⟩ : BufTy).Contents (Elt F)) (a2 : (⟨S512x512, .f32⟩ : BufTy).Contents (Elt F)) (a3 : (⟨S512, .f32⟩ : BufTy).Contents (Elt F)) (a4 : (⟨S512x512, .f32⟩ : BufTy).Contents (Elt F))
    (h29 : V (Proc.devRef .tc main_v29) = val_main_v29 (F := F) a0 a1 a2 a3 a4)
    (h1 : V (Proc.devRef .tc main_v1) = val_main_v1 (F := F) a1) (h3 : V (Proc.devRef .tc main_v3) = val_main_v3 (F := F) a1) :
    after opsB V (Proc.devRef .tc main_v55)
      = val_main_v55 (F := F) a0 a1 a2 a3 a4 (V (Proc.devRef .tc main_arg5)) (V (Proc.devRef .tc main_arg6)) (V (Proc.devRef .tc main_arg7)) := by
  after_results_simp
  rw [h29, h1, h3]
  rfl

set_option maxRecDepth 8192 in
set_option maxHeartbeats 4000000 in
theorem stageB_v1 (V : Valuation τ sig (Elt F)) :
    after opsB V (Proc.devRef .tc main_v1) = V (Proc.devRef .tc main_v1) := by
  after_results_simp

set_option maxRecDepth 8192 in
set_option maxHeartbeats 4000000 in
theorem stageB_v3 (V : Valuation τ sig (Elt F)) :
    after opsB V (Proc.devRef .tc main_v3) = V (Proc.devRef .tc main_v3) := by
  after_results_simp

set_option maxRecDepth 8192 in
set_option maxHeartbeats 4000000 in
theorem stageB_arg8 (V : Valuation τ sig (Elt F)) :
    after opsB V (Proc.devRef .tc main_arg8) = V (Proc.devRef .tc main_arg8) := by
  after_results_simp

set_option maxRecDepth 8192 in
set_option maxHeartbeats 4000000 in
theorem stageB_arg9 (V : Valuation τ sig (Elt F)) :
    after opsB V (Proc.devRef .tc main_arg9) = V (Proc.devRef .tc main_arg9) := by
  after_results_simp

set_option maxRecDepth 8192 in
set_option maxHeartbeats 4000000 in
theorem stageB_arg10 (V : Valuation τ sig (Elt F)) :
    after opsB V (Proc.devRef .tc main_arg10) = V (Proc.devRef .tc main_arg10) := by
  after_results_simp

/-! ## The third layer -/

set_option maxRecDepth 8192 in
set_option maxHeartbeats 4000000 in
/-- After the third layer's affine operations, from any contents holding the second layer's result and the two edge-index
    rows, their result holds the affine stage. -/
theorem stageC_v80 (V : Valuation τ sig (Elt F)) (a0 : (⟨S50000x512, .f32⟩ : BufTy).Contents (Elt F)) (a1 : (⟨S2x400000, .i32⟩ : BufTy).Contents (Elt F)) (a2 : (⟨S512x512, .f32⟩ : BufTy).Contents (Elt F)) (a3 : (⟨S512, .f32⟩ : BufTy).Contents (Elt F)) (a4 : (⟨S512x512, .f32⟩ : BufTy).Contents (Elt F)) (a5 : (⟨S512x512, .f32⟩ : BufTy).Contents (Elt F)) (a6 : (⟨S512, .f32⟩ : BufTy).Contents (Elt F)) (a7 : (⟨S512x512, .f32⟩ : BufTy).Contents (Elt F))
    (h55 : V (Proc.devRef .tc main_v55) = val_main_v55 (F := F) a0 a1 a2 a3 a4 a5 a6 a7)
    (h1 : V (Proc.devRef .tc main_v1) = val_main_v1 (F := F) a1) (h3 : V (Proc.devRef .tc main_v3) = val_main_v3 (F := F) a1) :
    after opsC1 V (Proc.devRef .tc main_v80)
      = val_main_v80 (F := F) a0 a1 a2 a3 a4 a5 a6 a7 (V (Proc.devRef .tc main_arg8)) (V (Proc.devRef .tc main_arg9)) (V (Proc.devRef .tc main_arg10)) := by
  after_results_simp
  rw [h55, h1, h3]
  rfl

set_option maxRecDepth 8192 in
set_option maxHeartbeats 4000000 in
/-- After the log-softmax operations, from any contents holding the affine stage, the program's result holds the last
    stage. -/
theorem stageC_v81 (V : Valuation τ sig (Elt F)) (a0 : (⟨S50000x512, .f32⟩ : BufTy).Contents (Elt F)) (a1 : (⟨S2x400000, .i32⟩ : BufTy).Contents (Elt F)) (a2 : (⟨S512x512, .f32⟩ : BufTy).Contents (Elt F)) (a3 : (⟨S512, .f32⟩ : BufTy).Contents (Elt F)) (a4 : (⟨S512x512, .f32⟩ : BufTy).Contents (Elt F)) (a5 : (⟨S512x512, .f32⟩ : BufTy).Contents (Elt F)) (a6 : (⟨S512, .f32⟩ : BufTy).Contents (Elt F)) (a7 : (⟨S512x512, .f32⟩ : BufTy).Contents (Elt F)) (a8 : (⟨S512x128, .f32⟩ : BufTy).Contents (Elt F)) (a9 : (⟨S128, .f32⟩ : BufTy).Contents (Elt F)) (a10 : (⟨S512x128, .f32⟩ : BufTy).Contents (Elt F))
    (h80 : V (Proc.devRef .tc main_v80) = val_main_v80 (F := F) a0 a1 a2 a3 a4 a5 a6 a7 a8 a9 a10) :
    after opsC2 V (Proc.devRef .tc main_v81) = val_main_v81 (F := F) a0 a1 a2 a3 a4 a5 a6 a7 a8 a9 a10 := by
  after_results_simp
  simp only [cast_cast_cancel]
  rw [h80, ofBuf_v80, toBuf_v81]
  unfold val_main_v81 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst
  rfl

/-! ## The layers in sequence -/

set_option maxRecDepth 8192 in
set_option maxHeartbeats 4000000 in
/-- The program's operations are the layers' in order. -/
theorem ops_split : (ops : List (HloOp τ sig (Elt F))) = opsA ++ (opsB ++ (opsC1 ++ opsC2)) := rfl

/-- From any contents `W`, after all the operations the result holds the last stage of the arguments' contents. -/
theorem result_eq (W : Valuation τ sig (Elt F)) :
    after ops W (Proc.devRef .tc main_v81)
      = val_main_v81 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  have e : after (ops (F := F)) W = after opsC2 (after opsC1 (after opsB (after opsA W))) := by
    rw [ops_split, after_append, after_append, after_append]
  have hB1 : after opsB (after opsA W) (Proc.devRef .tc main_v1) = val_main_v1 (F := F) (W (Proc.devRef .tc main_arg1)) :=
    (stageB_v1 _).trans (stageA_v1 W)
  have hB3 : after opsB (after opsA W) (Proc.devRef .tc main_v3) = val_main_v3 (F := F) (W (Proc.devRef .tc main_arg1)) :=
    (stageB_v3 _).trans (stageA_v3 W)
  have hB55 : after opsB (after opsA W) (Proc.devRef .tc main_v55)
      = val_main_v55 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
    rw [stageB_v55 (after opsA W) _ _ _ _ _ (stageA_v29 W) (stageA_v1 W) (stageA_v3 W), stageA_arg5, stageA_arg6, stageA_arg7]
  have hC80 : after opsC1 (after opsB (after opsA W)) (Proc.devRef .tc main_v80)
      = val_main_v80 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
    rw [stageC_v80 (after opsB (after opsA W)) _ _ _ _ _ _ _ _ hB55 hB1 hB3,
      stageB_arg8, stageB_arg9, stageB_arg10, stageA_arg8, stageA_arg9, stageA_arg10]
  rw [e]
  exact stageC_v81 _ _ _ _ _ _ _ _ _ _ _ _ hC80

/-! ## No operation writes an argument -/

set_option maxRecDepth 8192 in
set_option maxHeartbeats 4000000 in
theorem arg0_eq (W : Valuation τ sig (Elt F)) :
    after ops W (Proc.devRef .tc main_arg0) = W (Proc.devRef .tc main_arg0) := by
  after_results_simp

set_option maxRecDepth 8192 in
set_option maxHeartbeats 4000000 in
theorem arg1_eq (W : Valuation τ sig (Elt F)) :
    after ops W (Proc.devRef .tc main_arg1) = W (Proc.devRef .tc main_arg1) := by
  after_results_simp

set_option maxRecDepth 8192 in
set_option maxHeartbeats 4000000 in
theorem arg2_eq (W : Valuation τ sig (Elt F)) :
    after ops W (Proc.devRef .tc main_arg2) = W (Proc.devRef .tc main_arg2) := by
  after_results_simp

set_option maxRecDepth 8192 in
set_option maxHeartbeats 4000000 in
theorem arg3_eq (W : Valuation τ sig (Elt F)) :
    after ops W (Proc.devRef .tc main_arg3) = W (Proc.devRef .tc main_arg3) := by
  after_results_simp

set_option maxRecDepth 8192 in
set_option maxHeartbeats 4000000 in
theorem arg4_eq (W : Valuation τ sig (Elt F)) :
    after ops W (Proc.devRef .tc main_arg4) = W (Proc.devRef .tc main_arg4) := by
  after_results_simp

set_option maxRecDepth 8192 in
set_option maxHeartbeats 4000000 in
theorem arg5_eq (W : Valuation τ sig (Elt F)) :
    after ops W (Proc.devRef .tc main_arg5) = W (Proc.devRef .tc main_arg5) := by
  after_results_simp

set_option maxRecDepth 8192 in
set_option maxHeartbeats 4000000 in
theorem arg6_eq (W : Valuation τ sig (Elt F)) :
    after ops W (Proc.devRef .tc main_arg6) = W (Proc.devRef .tc main_arg6) := by
  after_results_simp

set_option maxRecDepth 8192 in
set_option maxHeartbeats 4000000 in
theorem arg7_eq (W : Valuation τ sig (Elt F)) :
    after ops W (Proc.devRef .tc main_arg7) = W (Proc.devRef .tc main_arg7) := by
  after_results_simp

set_option maxRecDepth 8192 in
set_option maxHeartbeats 4000000 in
theorem arg8_eq (W : Valuation τ sig (Elt F)) :
    after ops W (Proc.devRef .tc main_arg8) = W (Proc.devRef .tc main_arg8) := by
  after_results_simp

set_option maxRecDepth 8192 in
set_option maxHeartbeats 4000000 in
theorem arg9_eq (W : Valuation τ sig (Elt F)) :
    after ops W (Proc.devRef .tc main_arg9) = W (Proc.devRef .tc main_arg9) := by
  after_results_simp

set_option maxRecDepth 8192 in
set_option maxHeartbeats 4000000 in
theorem arg10_eq (W : Valuation τ sig (Elt F)) :
    after ops W (Proc.devRef .tc main_arg10) = W (Proc.devRef .tc main_arg10) := by
  after_results_simp

/-! ## The run -/

/-- On every device, for any float values, from any memory with zero counters: every weakly fair execution of the
    program terminates with the result at the last stage of the arguments and the arguments unchanged. -/
theorem run_any (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
          = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v81).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ)

/-- The same at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81)
          = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  run_any m ρ

end Cert.ReferenceIdeal.RefRun

end
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.RefValue.lean ====
/-
  The reference program's last stage as the specification's function of its arguments, at the ideal instance.

  The reference is three GraphSAGE layers.  Each layer first forms the neighbourhood means of its input: it gathers
  the input's rows along the edge list's source row, adds them up at the edge list's target row, and divides by the
  number of edges into the node (at least one).  That part is `agg` below; it is written exactly as the reference
  computes it and is never opened: every statement here holds for it as an unknown function of the edge list and the
  input.  The layer then takes `mean · W_l + b + x · W_r`, entry by entry
  `(Σ_j mean[r,j] · W_l[j,k] + b[k]) + Σ_j x[r,j] · W_r[j,k]`, and the first two layers clamp it below at zero.
  The last layer ends in a row-wise log-softmax in its shifted form: `mx` the row maximum folded from the pattern of
  -∞, then once more the maximum of that pattern and `mx` (which is `mx`: a fold of `max` from a value is at least
  that value), `s = o - mx`, and `s[k] - log (0 + Σ_j exp s[j])`.

  Each stage of the reference is read at an entry `(r, k)` from its operands at an entry; the index functions the
  stages compose are identified with the coordinate constructors; what is left is the specification's entry, term for
  term.  The three layers are then chained: the mean of a layer is `agg` of the layer before it.
-/
import proofs.«170947_j13606456394538_1_alg».proof.Proof.RefRead
import proofs.«170947_j13606456394538_1_alg».proof.Proof.Spec
import proofs.«170947_j13606456394538_1_alg».proof.Proof.LibHostMaxForms

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## The aggregation -/

/-- Neighbourhood means of the rows of `h` along the edge list `ei` (row 0 the sources, row 1 the targets): the source
    numbers are wrapped into range (a negative one has the row count added), the rows of `h` at the sources are added up
    at the targets from zero, and each sum is divided by the number of edges into the node, counted by adding ones at the
    targets from zero and raised to at least one. -/
def agg (ei : (⟨S2x400000, .i32⟩ : BufTy).Contents (Elt Ideal)) (h : (⟨S50000x512, .f32⟩ : BufTy).Contents (Elt Ideal)) : (⟨S50000x512, .f32⟩ : BufTy).Contents (Elt Ideal) :=
  Host.divf (F := Ideal)
    (Host.scatterAdd scatter_S50000x512_S400000x1_S400000x512_1_0_0_1 (broadcastInDim S50000x512 ![] bcast_S_S50000x512 (constant (F := Ideal) S_ .f32 0x00000000#32))
      (broadcastInDim S400000x1 ![0] bcast_S400000_S400000x1_0 (shapeCast _ (extractStridedSlice S1x400000 ![1, 0] ei slices_S2x400000_S1x400000_1_0) shapeCasts_S1x400000_S400000))
      (Host.gather gather_S50000x512_S400000x1_S400000x512_1_0_n_n_0_1_1512 h (broadcastInDim S400000x1 ![0] bcast_S400000_S400000x1_0
        (select (cmpi .slt (shapeCast _ (extractStridedSlice S1x400000 ![0, 0] ei slices_S2x400000_S1x400000_0_0) shapeCasts_S1x400000_S400000) (broadcastInDim S400000 ![] bcast_S_S400000 (constantI S_ 32 0#32))) (addi (shapeCast _ (extractStridedSlice S1x400000 ![0, 0] ei slices_S2x400000_S1x400000_0_0) shapeCasts_S1x400000_S400000) (broadcastInDim S400000 ![] bcast_S_S400000 (constantI S_ 32 50000#32))) (shapeCast _ (extractStridedSlice S1x400000 ![0, 0] ei slices_S2x400000_S1x400000_0_0) shapeCasts_S1x400000_S400000)))))
    (broadcastInDim S50000x512 ![0, 1] bcast_S50000x1_S50000x512_0_1 (broadcastInDim S50000x1 ![0] bcast_S50000_S50000x1_0
      (maximumf (Host.scatterAdd scatter_S50000_S400000x1_S400000_n_0_0_1 (broadcastInDim S50000 ![] bcast_S_S50000 (constant (F := Ideal) S_ .f32 0x00000000#32))
          (broadcastInDim S400000x1 ![0] bcast_S400000_S400000x1_0 (shapeCast _ (extractStridedSlice S1x400000 ![1, 0] ei slices_S2x400000_S1x400000_1_0) shapeCasts_S1x400000_S400000))
          (broadcastInDim S400000 ![] bcast_S_S400000 (constant (F := Ideal) S_ .f32 0x3F800000#32)))
        (broadcastInDim S50000 ![] bcast_S_S50000 (constant (F := Ideal) S_ .f32 0x3F800000#32)))))

/-- The first layer's neighbourhood mean is the aggregation of the input features. -/
theorem mean1_eq (x0 : (⟨S50000x512, .f32⟩ : BufTy).Contents (Elt Ideal)) (x1 : (⟨S2x400000, .i32⟩ : BufTy).Contents (Elt Ideal)) : val_main_v22 (F := Ideal) x0 x1 = agg x1 x0 := by
  unfold val_main_v22 val_main_v13 val_main_v21 val_main_v20 val_main_v19 val_main_v18 val_main_v17 val_main_v16 val_main_v15 val_main_v14 val_main_v12 val_main_v11 val_main_v10 val_main_v9 val_main_v8 val_main_v7 val_main_v6 val_main_v5 val_main_v4 val_main_v3 val_main_v2 val_main_v1 val_main_v0 val_main_cst val_main_cst_1 val_main_cst_2 val_main_cst_3 val_main_c val_main_c_0 agg
  rfl

/-- The second layer's neighbourhood mean is the aggregation of the first hidden layer. -/
theorem mean2_eq (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) : val_main_v48 (F := Ideal) x0 x1 x2 x3 x4 = agg x1 (val_main_v29 (F := Ideal) x0 x1 x2 x3 x4) := by
  unfold val_main_v48 val_main_v39 val_main_v47 val_main_v46 val_main_v45 val_main_v44 val_main_v43 val_main_v42 val_main_v41 val_main_v40 val_main_v38 val_main_v37 val_main_v36 val_main_v35 val_main_v34 val_main_v33 val_main_v32 val_main_v31 val_main_v30 val_main_v3 val_main_v2 val_main_v1 val_main_v0 val_main_cst_6 val_main_cst_7 val_main_cst_8 val_main_cst_9 val_main_c_4 val_main_c_5 agg
  rfl

/-- The third layer's neighbourhood mean is the aggregation of the second hidden layer. -/
theorem mean3_eq (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) : val_main_v74 (F := Ideal) x0 x1 x2 x3 x4 x5 x6 x7 = agg x1 (val_main_v55 (F := Ideal) x0 x1 x2 x3 x4 x5 x6 x7) := by
  unfold val_main_v74 val_main_v65 val_main_v73 val_main_v72 val_main_v71 val_main_v70 val_main_v69 val_main_v68 val_main_v67 val_main_v66 val_main_v64 val_main_v63 val_main_v62 val_main_v61 val_main_v60 val_main_v59 val_main_v58 val_main_v57 val_main_v56 val_main_v3 val_main_v2 val_main_v1 val_main_v0 val_main_cst_12 val_main_cst_13 val_main_cst_14 val_main_cst_15 val_main_c_10 val_main_c_11 agg
  rfl

/-! ## The index functions of the stages, at an entry given by its coordinates -/

/- A matrix product's entry (r, k) reads the left operand at (r, j) and the right at (j, k); a bias broadcast along the rows
   reads the bias at k; the row maximum and the row sum broadcast along the columns are read at r, and the row sum's
   j-th term is the entry (r, j). -/
theorem lidx23 (r : Fin 50000) (k j : Fin 512) : lidx_main_v23 (ix2 r k) j = ix2 r j :=
  funext fun a => Fin.ext (by match a with | ⟨0, _⟩ => rfl | ⟨1, _⟩ => rfl)
theorem ridx23 (r : Fin 50000) (k j : Fin 512) : ridx_main_v23 (ix2 r k) j = ix2 j k :=
  funext fun a => Fin.ext (by match a with | ⟨0, _⟩ => rfl | ⟨1, _⟩ => rfl)
theorem lidx27 (r : Fin 50000) (k j : Fin 512) : lidx_main_v27 (ix2 r k) j = ix2 r j :=
  funext fun a => Fin.ext (by match a with | ⟨0, _⟩ => rfl | ⟨1, _⟩ => rfl)
theorem ridx27 (r : Fin 50000) (k j : Fin 512) : ridx_main_v27 (ix2 r k) j = ix2 j k :=
  funext fun a => Fin.ext (by match a with | ⟨0, _⟩ => rfl | ⟨1, _⟩ => rfl)
theorem bidx1 (r : Fin 50000) (k : Fin 512) : idx_main_v24 (idx_main_v25 (ix2 r k)) = ix1 k :=
  funext fun a => Fin.ext (by match a with | ⟨0, _⟩ => rfl)

theorem lidx49 (r : Fin 50000) (k j : Fin 512) : lidx_main_v49 (ix2 r k) j = ix2 r j :=
  funext fun a => Fin.ext (by match a with | ⟨0, _⟩ => rfl | ⟨1, _⟩ => rfl)
theorem ridx49 (r : Fin 50000) (k j : Fin 512) : ridx_main_v49 (ix2 r k) j = ix2 j k :=
  funext fun a => Fin.ext (by match a with | ⟨0, _⟩ => rfl | ⟨1, _⟩ => rfl)
theorem lidx53 (r : Fin 50000) (k j : Fin 512) : lidx_main_v53 (ix2 r k) j = ix2 r j :=
  funext fun a => Fin.ext (by match a with | ⟨0, _⟩ => rfl | ⟨1, _⟩ => rfl)
theorem ridx53 (r : Fin 50000) (k j : Fin 512) : ridx_main_v53 (ix2 r k) j = ix2 j k :=
  funext fun a => Fin.ext (by match a with | ⟨0, _⟩ => rfl | ⟨1, _⟩ => rfl)
theorem bidx2 (r : Fin 50000) (k : Fin 512) : idx_main_v50 (idx_main_v51 (ix2 r k)) = ix1 k :=
  funext fun a => Fin.ext (by match a with | ⟨0, _⟩ => rfl)
theorem lidx75 (r : Fin 50000) (k : Fin 128) (j : Fin 512) : lidx_main_v75 (ix2 r k) j = ix2 r j :=
  funext fun a => Fin.ext (by match a with | ⟨0, _⟩ => rfl | ⟨1, _⟩ => rfl)
theorem ridx75 (r : Fin 50000) (k : Fin 128) (j : Fin 512) : ridx_main_v75 (ix2 r k) j = ix2 j k :=
  funext fun a => Fin.ext (by match a with | ⟨0, _⟩ => rfl | ⟨1, _⟩ => rfl)
theorem lidx79 (r : Fin 50000) (k : Fin 128) (j : Fin 512) : lidx_main_v79 (ix2 r k) j = ix2 r j :=
  funext fun a => Fin.ext (by match a with | ⟨0, _⟩ => rfl | ⟨1, _⟩ => rfl)
theorem ridx79 (r : Fin 50000) (k : Fin 128) (j : Fin 512) : ridx_main_v79 (ix2 r k) j = ix2 j k :=
  funext fun a => Fin.ext (by match a with | ⟨0, _⟩ => rfl | ⟨1, _⟩ => rfl)
theorem bidx3 (r : Fin 50000) (k : Fin 128) : idx_main_v76 (idx_main_v77 (ix2 r k)) = ix1 k :=
  funext fun a => Fin.ext (by match a with | ⟨0, _⟩ => rfl)
theorem midx (r : Fin 50000) (k : Fin 128) : idx_main_call2_v3 (idx_main_call2_v4 (ix2 r k)) = ix1 r :=
  funext fun a => Fin.ext (by match a with | ⟨0, _⟩ => rfl)
theorem sidx (r : Fin 50000) (k j : Fin 128) : idx_main_call2_v7 (idx_main_call2_v8 (idx_main_call2_v10 (ix2 r k))) j = ix2 r j :=
  funext fun a => Fin.ext (by match a with | ⟨0, _⟩ => rfl | ⟨1, _⟩ => rfl)

/-! ## The layers -/

/-- The first hidden layer: the affine map of the mean and the input, clamped below at zero. -/
theorem layer1 (x0 : (⟨S50000x512, .f32⟩ : BufTy).Contents (Elt Ideal)) (x1 : (⟨S2x400000, .i32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) :
    val_main_v29 (F := Ideal) x0 x1 x2 x3 x4
      = Cert.Spec.reluLayer (val_main_v22 (F := Ideal) x0 x1) x0 x2 x4 (fun k => x3 (ix1 k)) := by
  funext i
  obtain ⟨r, k, rfl⟩ : ∃ (r : Fin 50000) (k : Fin 512), i = ix2 r k := ⟨i 0, i 1, eq_ix2 i⟩
  rw [Cert.Spec.reluLayer_ix2, val_main_v29_apply, val_main_v28_apply, val_main_v26_apply, val_main_v23_apply, val_main_v25_apply,
    val_main_v24_apply, val_main_v27_apply, val_main_call0_v0_apply, val_main_call0_cst_apply]
  generalize val_main_v22 (F := Ideal) x0 x1 = mean
  simp only [lidx23, ridx23, lidx27, ridx27, bidx1, Ideal.maximumf_def, Ideal.addf_def, Ideal.ofBits_def, Ideal.ofBits_zero_f32]
  rfl

/-- The second hidden layer, over the first. -/
theorem layer2 (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) :
    val_main_v55 (F := Ideal) x0 x1 x2 x3 x4 x5 x6 x7
      = Cert.Spec.reluLayer (val_main_v48 (F := Ideal) x0 x1 x2 x3 x4) (val_main_v29 (F := Ideal) x0 x1 x2 x3 x4) x5 x7 (fun k => x6 (ix1 k)) := by
  funext i
  obtain ⟨r, k, rfl⟩ : ∃ (r : Fin 50000) (k : Fin 512), i = ix2 r k := ⟨i 0, i 1, eq_ix2 i⟩
  rw [Cert.Spec.reluLayer_ix2, val_main_v55_apply, val_main_v54_apply, val_main_v52_apply, val_main_v49_apply, val_main_v51_apply,
    val_main_v50_apply, val_main_v53_apply, val_main_call1_v0_apply, val_main_call1_cst_apply]
  generalize val_main_v48 (F := Ideal) x0 x1 x2 x3 x4 = mean
  generalize val_main_v29 (F := Ideal) x0 x1 x2 x3 x4 = h
  simp only [lidx49, ridx49, lidx53, ridx53, bidx2, Ideal.maximumf_def, Ideal.addf_def, Ideal.ofBits_def, Ideal.ofBits_zero_f32]
  rfl

/-- The output layer's affine part, entry by entry. -/
theorem lin3 (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512x128, .f32⟩ : BufTy).Contents (Elt Ideal)) (x9 : (⟨S128, .f32⟩ : BufTy).Contents (Elt Ideal)) (x10 : (⟨S512x128, .f32⟩ : BufTy).Contents (Elt Ideal)) (r : Fin 50000) (k : Fin 128) :
    val_main_v80 (F := Ideal) x0 x1 x2 x3 x4 x5 x6 x7 x8 x9 x10 (ix2 r k) = Cert.Spec.lin (val_main_v74 (F := Ideal) x0 x1 x2 x3 x4 x5 x6 x7) (val_main_v55 (F := Ideal) x0 x1 x2 x3 x4 x5 x6 x7) x8 x10 (fun k => x9 (ix1 k)) r k := by
  rw [val_main_v80_apply, val_main_v78_apply, val_main_v75_apply, val_main_v77_apply, val_main_v76_apply, val_main_v79_apply]
  generalize val_main_v74 (F := Ideal) x0 x1 x2 x3 x4 x5 x6 x7 = mean
  generalize val_main_v55 (F := Ideal) x0 x1 x2 x3 x4 x5 x6 x7 = h
  simp only [lidx75, ridx75, lidx79, ridx79, bidx3, Ideal.addf_def]
  rfl

/-- The row maximum: the fold of max from the pattern of -∞; taking its maximum with that pattern again changes nothing,
    a fold of max from a value being at least that value. -/
theorem max3 (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512x128, .f32⟩ : BufTy).Contents (Elt Ideal)) (x9 : (⟨S128, .f32⟩ : BufTy).Contents (Elt Ideal)) (x10 : (⟨S512x128, .f32⟩ : BufTy).Contents (Elt Ideal)) (r : Fin 50000) :
    val_main_call2_v2 (F := Ideal) x0 x1 x2 x3 x4 x5 x6 x7 x8 x9 x10 (ix1 r) = Cert.Spec.rowMax (val_main_v74 (F := Ideal) x0 x1 x2 x3 x4 x5 x6 x7) (val_main_v55 (F := Ideal) x0 x1 x2 x3 x4 x5 x6 x7) x8 x10 (fun k => x9 (ix1 k)) r := by
  rw [val_main_call2_v2_apply, val_main_call2_v1_apply, val_main_call2_cst_0_apply]
  unfold val_main_call2_v0
  rw [hostReduceMax2_last _ _ reducesTo_S50000x128_S50000_d1 (by decide) h_S_ r, val_main_call2_cst_apply]
  simp only [lin3, Ideal.maximumf_def, Ideal.ofBits_def]
  rw [max_eq_right ((Finset.le_fold_max _).mpr (Or.inl le_rfl))]
  rfl

/-- The shifted row: the affine part less the row maximum. -/
theorem shift3 (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512x128, .f32⟩ : BufTy).Contents (Elt Ideal)) (x9 : (⟨S128, .f32⟩ : BufTy).Contents (Elt Ideal)) (x10 : (⟨S512x128, .f32⟩ : BufTy).Contents (Elt Ideal)) (r : Fin 50000) (k : Fin 128) :
    val_main_call2_v5 (F := Ideal) x0 x1 x2 x3 x4 x5 x6 x7 x8 x9 x10 (ix2 r k)
      = Cert.Spec.lin (val_main_v74 (F := Ideal) x0 x1 x2 x3 x4 x5 x6 x7) (val_main_v55 (F := Ideal) x0 x1 x2 x3 x4 x5 x6 x7) x8 x10 (fun k => x9 (ix1 k)) r k - Cert.Spec.rowMax (val_main_v74 (F := Ideal) x0 x1 x2 x3 x4 x5 x6 x7) (val_main_v55 (F := Ideal) x0 x1 x2 x3 x4 x5 x6 x7) x8 x10 (fun k => x9 (ix1 k)) r := by
  rw [val_main_call2_v5_apply, val_main_call2_v4_apply, val_main_call2_v3_apply, midx, max3, lin3, Ideal.subf_def]

/-- The output layer: the shifted log-softmax of the affine part, row by row. -/
theorem layer3 (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512x128, .f32⟩ : BufTy).Contents (Elt Ideal)) (x9 : (⟨S128, .f32⟩ : BufTy).Contents (Elt Ideal)) (x10 : (⟨S512x128, .f32⟩ : BufTy).Contents (Elt Ideal)) :
    val_main_v81 (F := Ideal) x0 x1 x2 x3 x4 x5 x6 x7 x8 x9 x10 = Cert.Spec.lsmLayer (val_main_v74 (F := Ideal) x0 x1 x2 x3 x4 x5 x6 x7) (val_main_v55 (F := Ideal) x0 x1 x2 x3 x4 x5 x6 x7) x8 x10 (fun k => x9 (ix1 k)) := by
  funext i
  obtain ⟨r, k, rfl⟩ : ∃ (r : Fin 50000) (k : Fin 128), i = ix2 r k := ⟨i 0, i 1, eq_ix2 i⟩
  rw [Cert.Spec.lsmLayer_ix2, val_main_v81_apply, val_main_call2_v10_apply, val_main_call2_v9_apply, val_main_call2_v8_apply,
    val_main_call2_v7_apply, val_main_call2_cst_1_apply]
  simp only [sidx, val_main_call2_v6_apply, shift3, Ideal.subf_def, Ideal.hostUnary_exp_def, Ideal.hostUnary_log_def, Ideal.ofBits_def,
    Ideal.ofBits_zero_f32, zero_add]
  rfl

/-! ## The network -/

/-- The reference's last stage is the specification's network of its arguments — the features, the six weight matrices
    and the three biases — over the aggregation along the edge list: the three layers in sequence. -/
theorem net_eq (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512x128, .f32⟩ : BufTy).Contents (Elt Ideal)) (x9 : (⟨S128, .f32⟩ : BufTy).Contents (Elt Ideal)) (x10 : (⟨S512x128, .f32⟩ : BufTy).Contents (Elt Ideal)) :
    val_main_v81 (F := Ideal) x0 x1 x2 x3 x4 x5 x6 x7 x8 x9 x10
      = Cert.Spec.sage3 (agg x1) x0 x2 x4 x5 x7 x8 x10 (fun k => x3 (ix1 k)) (fun k => x6 (ix1 k)) (fun k => x9 (ix1 k)) := by
  rw [layer3, mean3_eq, layer2, mean2_eq, layer1, mean1_eq]
  rfl

end Cert.ReferenceIdeal.RefValue

end
-- ==== Proof.lean ====
/-
  Three-layer GraphSAGE with mean aggregation and a log-softmax head: the kernel program against its reference.

  Both programs compute, layer by layer, the neighbourhood means of the current node features along the edge
  list (gather the source rows, add them into the destination rows, divide by the in-degree or by one), then the
  affine map  mean · W_l + b + x · W_r , entry by entry
      (Σ_j mean[r,j] · W_l[j,k] + b[k]) + Σ_j x[r,j] · W_r[j,k]
  with the same grouping on both sides, then max(·, 0) after the first two layers and, after the third, the
  row-wise log-softmax in its shifted form  s[k] - log Σ_j exp s[j] ,  s = o - max_j o[j].

  The kernel program does the aggregation with host operations and the rest in three kernel regions, each over
  a grid of 50 blocks of 1000 rows; the reference does everything with host operations. On the extended reals
  a change of float format is the identity, a block matrix product into a zero accumulator and the host's
  dot_general are the same sum over the 512 input features, a lane reduction and the host's reduction are
  the same sum or the same fold of max, and the reference's extra maximum of the row maximum with -∞ changes
  nothing; a row of the output depends on the same row of the inputs only, so the 50 blocks of a region are
  the blocks of one whole-array function. The aggregation is the same host operations on both sides and is
  carried as one function, never opened. No finiteness of the inputs is used: no law beyond these readings is
  needed, so the precondition is not opened.

  The pieces: Spec (the layers as functions), Payload (each region's stored value at an entry), Region0–2
  (from a region's blocks to its whole output array), KRun (the kernel program's run with its result kept),
  KChain (the buffers between the segments, back to the launch arguments), RefRun (the reference's run, layer
  by layer), RefValue (the reference's last stage as the layers). preserves is trivial: the idealization
  rewrote nothing.
-/
import proofs.«170947_j13606456394538_1_alg».proof.Defs
import proofs.«170947_j13606456394538_1_alg».proof.Proof.Gen.Kernel
import proofs.«170947_j13606456394538_1_alg».proof.Proof.Gen.Kernel.Skeleton
import proofs.«170947_j13606456394538_1_alg».proof.Proof.Gen.Kernel.Launch
import proofs.«170947_j13606456394538_1_alg».proof.Proof.Gen.Kernel.Points
import proofs.«170947_j13606456394538_1_alg».proof.Proof.Gen.Kernel.Frame
import proofs.«170947_j13606456394538_1_alg».proof.Proof.Gen.KernelIdeal
import proofs.«170947_j13606456394538_1_alg».proof.Proof.Gen.KernelIdeal.Skeleton
import proofs.«170947_j13606456394538_1_alg».proof.Proof.Gen.KernelIdeal.Launch
import proofs.«170947_j13606456394538_1_alg».proof.Proof.Gen.KernelIdeal.Points
import proofs.«170947_j13606456394538_1_alg».proof.Proof.Gen.KernelIdeal.Frame
import proofs.«170947_j13606456394538_1_alg».proof.Proof.Gen.ReferenceIdeal
import proofs.«170947_j13606456394538_1_alg».proof.Proof.Gen.Pre_finite_inputs
import proofs.«170947_j13606456394538_1_alg».proof.Proof.KRun
import proofs.«170947_j13606456394538_1_alg».proof.Proof.KChain
import proofs.«170947_j13606456394538_1_alg».proof.Proof.RefRun
import proofs.«170947_j13606456394538_1_alg».proof.Proof.RefValue
import Idealize.ShloMosaic.Adequacy
import Idealize.ShloMosaic.Init

noncomputable section

namespace Cert.Proof

open Idealize.ShloMosaic Idealize.SL.Sem

/-- The aggregation as the reference's host operations compute it is the one the kernel program's host operations
    compute: the same operations, with the source and destination rows of the edge list named. -/
theorem agg_eq (ei : (⟨Cert.KernelIdeal.S2x400000, .i32⟩ : BufTy).Contents (Elt Ideal)) :
    Cert.ReferenceIdeal.RefValue.agg ei = Cert.KernelIdeal.KChain.aggSD (Cert.KernelIdeal.KChain.srcOf ei) (Cert.KernelIdeal.KChain.dstOf ei) :=
  funext fun _ => rfl

theorem frame_k : Cert.frame_Kernel := fun m ρ _ => Cert.Kernel.Gen.frame m ρ

theorem frame_ki : Cert.frame_KernelIdeal := fun m ρ _ => Cert.KernelIdeal.Gen.frame m ρ

/-- The idealized kernel program's run with its result: the three layers over the aggregation, of the launch arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v66) = Cert.Spec.sage3 (Cert.KernelIdeal.KChain.aggSD (Cert.KernelIdeal.KChain.srcOf (m ((c.tc : Thread Cert.KernelIdeal.nD Cert.KernelIdeal.τ).loc Cert.KernelIdeal.main_arg1))) (Cert.KernelIdeal.KChain.dstOf (m ((c.tc : Thread Cert.KernelIdeal.nD Cert.KernelIdeal.τ).loc Cert.KernelIdeal.main_arg1)))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))
      (fun k => (m ((c.tc : Thread Cert.KernelIdeal.nD Cert.KernelIdeal.τ).loc Cert.KernelIdeal.main_arg3)) (Idealize.ShloMosaic.ValueIdx.ix1 k)) (fun k => (m ((c.tc : Thread Cert.KernelIdeal.nD Cert.KernelIdeal.τ).loc Cert.KernelIdeal.main_arg6)) (Idealize.ShloMosaic.ValueIdx.ix1 k)) (fun k => (m ((c.tc : Thread Cert.KernelIdeal.nD Cert.KernelIdeal.τ).loc Cert.KernelIdeal.main_arg9)) (Idealize.ShloMosaic.ValueIdx.ix1 k))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono (fun r h c => ⟨(h c).1.trans (Cert.KernelIdeal.KChain.result_eq m g c), (h c).2⟩)
    (Cert.KernelIdeal.KRun.run_value (F := Ideal) m g)

theorem frame_ri : Cert.frame_ReferenceIdeal := fun m ρ _ =>
  (θ_run (Cert.ReferenceIdeal.defs (F := Ideal)) _ _).mono (fun _ h c => (h c).2) (Cert.ReferenceIdeal.RefRun.run m ρ)

/-- Both programs end with the three layers over the same aggregation of the same arguments. -/
theorem algebraic : Cert.algebraic_KernelIdeal_ReferenceIdeal := by
  intro m g m' g' _ hagree
  refine ⟨fun c => Cert.Spec.sage3 (Cert.KernelIdeal.KChain.aggSD (Cert.KernelIdeal.KChain.srcOf (m ((c.tc : Thread Cert.KernelIdeal.nD Cert.KernelIdeal.τ).loc Cert.KernelIdeal.main_arg1))) (Cert.KernelIdeal.KChain.dstOf (m ((c.tc : Thread Cert.KernelIdeal.nD Cert.KernelIdeal.τ).loc Cert.KernelIdeal.main_arg1)))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))
      (fun k => (m ((c.tc : Thread Cert.KernelIdeal.nD Cert.KernelIdeal.τ).loc Cert.KernelIdeal.main_arg3)) (Idealize.ShloMosaic.ValueIdx.ix1 k)) (fun k => (m ((c.tc : Thread Cert.KernelIdeal.nD Cert.KernelIdeal.τ).loc Cert.KernelIdeal.main_arg6)) (Idealize.ShloMosaic.ValueIdx.ix1 k)) (fun k => (m ((c.tc : Thread Cert.KernelIdeal.nD Cert.KernelIdeal.τ).loc Cert.KernelIdeal.main_arg9)) (Idealize.ShloMosaic.ValueIdx.ix1 k)), kernel_run m g, ?_⟩
  refine (θ_run (Cert.ReferenceIdeal.defs (F := Ideal)) _ _).mono (fun r h c => ⟨(h c).1.trans ?_, (h c).2⟩) (Cert.ReferenceIdeal.RefRun.run m' g')
  obtain ⟨e0, e1, e2, e3, e4, e5, e6, e7, e8, e9, e10⟩ := hagree c
  rw [Cert.ReferenceIdeal.RefValue.net_eq, e0, e1, e2, e3, e4, e5, e6, e7, e8, e9, e10, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
